-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x2 : Shape := ⟨2, ![96, 2]⟩
abbrev S2 : Shape := ⟨1, ![2]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S96x2 : S_.BroadcastsInDim S96x2 (![] : Fin 0 → Fin S96x2.rank)
  reducesTo_S96x2_S_d0_1 : S96x2.ReducesTo [0, 1] S_
  bcast_S_S2 : S_.BroadcastsInDim S2 (![] : Fin 0 → Fin S2.rank)
  reducesTo_S2_S_d0 : S2.ReducesTo [0] S_
  bcast_S_S2x800000 : S_.BroadcastsInDim S2x800000 (![] : Fin 0 → Fin S2x800000.rank)
  reducesTo_S2x800000_S_d0_1 : S2x800000.ReducesTo [0, 1] S_

variable [Facts]

def fn_part1 {F : FTy → Type} [FloatOps F] (main_arg1 : IVec S2x800000 32) (main_arg5 : FVec F S2 .f32) (main_v13 : IVec S_ 1) (main_v16 : IVec S96x2 1) : IVec S_ 1 :=
  let main_c_5 : IVec S_ 1 := constantI S_ 1 1#1
  let main_v17 : IVec S_ 1 := (fun x v => Host.reduce IntOp.andi x v reducesTo_S96x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_c_8 : IVec S_ 32 := constantI S_ 32 0#32
  let main_v24 : IVec S2x800000 32 := broadcastInDim S2x800000 ![] bcast_S_S2x800000 main_c_8
  let main_v25 : IVec S2x800000 1 := cmpi .sge main_arg1 main_v24
  let main_c_9 : IVec S_ 1 := constantI S_ 1 1#1
  let main_v26 : IVec S_ 1 := (fun x v => Host.reduce IntOp.andi x v reducesTo_S2x800000_S_d0_1 h_S_) main_v25 main_c_9
  let main_v27 : IVec S_ 1 := andi main_v23 main_v26
  let main_c_10 : IVec S_ 32 := constantI S_ 32 50000#32
  let main_v28 : IVec S2x800000 32 := broadcastInDim S2x800000 ![] bcast_S_S2x800000 main_c_10
  let main_v29 : IVec S2x800000 1 := cmpi .slt main_arg1 main_v28
  let main_c_11 : IVec S_ 1 := constantI S_ 1 1#1
  let main_v30 : IVec S_ 1 := (fun x v => Host.reduce IntOp.andi x v reducesTo_S2x800000_S_d0_1 h_S_) main_v29 main_c_11
  let main_v31 : IVec S_ 1 := andi main_v27 main_v30
  main_v31

def fn {F : FTy → Type} [FloatOps F] (main_arg0 : FVec F S50000x96 .f32) (main_arg1 : IVec S2x800000 32) (main_arg2 : FVec F S96x96 .f32) (main_arg3 : FVec F S96 .f32) (main_arg4 : FVec F S96x2 .f32) (main_arg5 : FVec F S2 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x2 .f32 := Host.absf main_arg4
  let main_cst_4 : FVec F S_ .f32 := constant S_ .f32 0x7F800000#32
  let main_v15 : FVec F S96x2 .f32 := broadcastInDim S96x2 ![] bcast_S_S96x2 main_cst_4
  let main_v16 : IVec S96x2 1 := cmpf .olt main_v14 main_v15
  fn_part1 (F := F) main_arg1 main_arg5 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x2 : Shape := ⟨2, ![96, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S5000x96 : Shape := ⟨2, ![5000, 96]⟩
abbrev S1x2 : Shape := ⟨2, ![1, 2]⟩
abbrev S50000x2 : Shape := ⟨2, ![50000, 2]⟩
abbrev S5000x2 : Shape := ⟨2, ![5000, 2]⟩
abbrev S800000x2 : Shape := ⟨2, ![800000, 2]⟩

abbrev nBuf : Space → Nat
  | .hbm => 55
  | .vmem => 12
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x2, .f32⟩
  | .hbm, ⟨5, _⟩ => ⟨S2, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x96, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S50000x96, .f32⟩
  | .hbm, ⟨28, _⟩ => ⟨S1x96, .f32⟩
  | .hbm, ⟨29, _⟩ => ⟨S50000x96, .f32⟩
  | .hbm, ⟨30, _⟩ => ⟨S_, .f32⟩
  | .hbm, ⟨31, _⟩ => ⟨S2, .f32⟩
  | .hbm, ⟨32, _⟩ => ⟨S1x2, .f32⟩
  | .hbm, ⟨33, _⟩ => ⟨S50000x2, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x2, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S50000x2, .f32⟩
  | .hbm, ⟨52, _⟩ => ⟨S1x2, .f32⟩
  | .hbm, ⟨53, _⟩ => ⟨S50000x2, .f32⟩
  | .hbm, ⟨54, _⟩ => ⟨S50000x2, .f32⟩
  | .local _ .vmem, ⟨0, _⟩ => ⟨S5000x96, .f32⟩
  | .local _ .vmem, ⟨1, _⟩ => ⟨S5000x96, .f32⟩
  | .local _ .vmem, ⟨2, _⟩ => ⟨S96x96, .f32⟩
  | .local _ .vmem, ⟨3, _⟩ => ⟨S1x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S96x2, .f32⟩
  | .local _ .vmem, ⟨9, _⟩ => ⟨S1x2, .f32⟩
  | .local _ .vmem, ⟨10, _⟩ => ⟨S5000x2, .f32⟩
  | .local _ .vmem, ⟨11, _⟩ => ⟨S5000x2, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  bcast_S_S2 : S_.BroadcastsInDim S2 (![] : Fin 0 → Fin S2.rank)
  shapeCasts_S2_S1x2 : S2.ShapeCasts S1x2
  inb_S96x2_S96x2_0_0 : ∀ a, (![0, 0] : Fin 2 → Nat) a + S96x2.size a ≤ S96x2.size a
  h_S96x2 : 0 < S96x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S5000x96_S96x2_S5000x2_1_0_0_1_n_n_wf : DotDims.WF S5000x96 S96x2 S5000x2 [1] [0] [0] [1] [] []
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x2.size a ≤ S96x2.size a
  hwx1_1 : ∀ i : grid1.Coords, EltTy.bits .f32 = 32 ∨ (Rect.block (s := S96x2) S96x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2.size a ≤ S1x2.size a
  hwx1_2 : ∀ i : grid1.Coords, EltTy.bits .f32 = 32 ∨ (Rect.block (s := S1x2) S1x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x2.size a ≤ S50000x2.size a
  hwx1_3 : ∀ i : grid1.Coords, EltTy.bits .f32 = 32 ∨ (Rect.block (s := S50000x2) S5000x2.size (cc1_transform_3 i) (hinb1_3 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x2_S5000x2_1_0_0_1_n_n : DotDims S5000x96 S96x2 S5000x2 where
  lhsContracting := [1]
  rhsContracting := [0]
  lhsNonContracting := [0]
  rhsNonContracting := [1]
  lhsBatch := []
  rhsBatch := []
  wf := dot_S5000x96_S96x2_S5000x2_1_0_0_1_n_n_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf

abbrev win0_0 : Pipeline.Window sig grid0 :=
  Pipeline.Window.ofSpec (Memref.whole main_v17) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S96x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S5000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S96x2 : Shape := ⟨2, ![96, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S50000x2 : Shape := ⟨2, ![50000, 2]⟩
abbrev S1x2 : Shape := ⟨2, ![1, 2]⟩

abbrev nBuf : Space → Nat
  | .hbm => 49
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96, .f32⟩
  | .hbm, ⟨4, _⟩ => ⟨S96x2, .f32⟩
  | .hbm, ⟨5, _⟩ => ⟨S2, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x96, .f32⟩
  | .hbm, ⟨19, _⟩ => ⟨S_, .f32⟩
  | .hbm, ⟨20, _⟩ => ⟨S50000x96, .f32⟩
  | .hbm, ⟨21, _⟩ => ⟨S800000x1, .i32⟩
  | .hbm, ⟨22, _⟩ => ⟨S50000x96, .f32⟩
  | .hbm, ⟨23, _⟩ => ⟨S50000x96, .f32⟩
  | .hbm, ⟨24, _⟩ => ⟨S50000x96, .f32⟩
  | .hbm, ⟨25, _⟩ => ⟨S1x96, .f32⟩
  | .hbm, ⟨26, _⟩ => ⟨S50000x96, .f32⟩
  | .hbm, ⟨27, _⟩ => ⟨S50000x96, .f32⟩
  | .hbm, ⟨28, _⟩ => ⟨S_, .f32⟩
  | .hbm, ⟨29, _⟩ => ⟨S50000x96, .f32⟩
  | .hbm, ⟨30, _⟩ => ⟨S50000x96, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x96, .f32⟩
  | .hbm, ⟨40, _⟩ => ⟨S_, .f32⟩
  | .hbm, ⟨41, _⟩ => ⟨S50000x96, .f32⟩
  | .hbm, ⟨42, _⟩ => ⟨S800000x1, .i32⟩
  | .hbm, ⟨43, _⟩ => ⟨S50000x96, .f32⟩
  | .hbm, ⟨44, _⟩ => ⟨S50000x96, .f32⟩
  | .hbm, ⟨45, _⟩ => ⟨S50000x2, .f32⟩
  | .hbm, ⟨46, _⟩ => ⟨S1x2, .f32⟩
  | .hbm, ⟨47, _⟩ => ⟨S50000x2, .f32⟩
  | .hbm, ⟨48, _⟩ => ⟨S50000x2, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x2_S50000x2_1_0_0_1_n_n_wf : DotDims.WF S50000x96 S96x2 S50000x2 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x2_S50000x2_1_0_0_1_n_n : DotDims S50000x96 S96x2 S50000x2 where
  lhsContracting := [1]
  rhsContracting := [0]
  lhsNonContracting := [0]
  rhsNonContracting := [1]
  lhsBatch := []
  rhsBatch := []
  wf := dot_S50000x96_S96x2_S50000x2_1_0_0_1_n_n_wf

class Facts : Prop extends Facts₀ where

variable [Facts]
-- ==== Proof.KRun.lean ====
/-
  The kernel program's run with its result named.

  Every weakly fair execution of the program terminates without a fault; at the end the result buffer holds what the
  fold of the program's segments leaves in it (host operations, first region, host operations, second region, host
  operations, each from the previous boundary's contents), and the six argument arrays are as launched.  This is the
  generated frame's run with one more buffer read off the final thread state.
-/
import proofs.«146721_j36627481100824_2_alg».proof.Proof.Gen.KernelIdeal.Frame
import Idealize.ShloMosaic.PureOps.Ideal

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: the result buffer at the last boundary's contents, the arguments unchanged. -/
theorem run_result : θ_run defs (onTc (τ := τ) (main (F := Ideal))) ⟨m, fun _ => 0, ρ⟩ (fun r => ∀ c : Dev nD,
      r.2.mem ((c.tc : Thread nD τ).loc main_v39) = W5 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v39 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.KRun

end
-- ==== Proof.GinSpec.lean ====
/-
  The two-layer sum-aggregating graph network, as plain functions of its inputs over the extended reals.

  Nodes are `Fin N`, edges `Fin E`.  Edge `e` carries a target word `tgt e` (a signed integer: the edge feeds node
  `i` exactly when `tgt e = i`, so a target outside `[0, N)` feeds nobody) and a source row `srow e`.
  `seg` is the neighbour sum: at node `i`, the sum over the edges that feed `i` of the source node's row.

  One layer is "add the neighbour sum to the node's own row, then apply a linear map".  The two programs differ in
  where the second layer's linear map sits: one applies it to (h + neighbour sum of h), the other first maps every
  row of h through it and then adds the neighbour sum of the mapped rows.  Over the reals these agree because a
  linear map commutes with finite sums (`outK_eq_outR`); over the extended reals the step needs every entry that is
  multiplied to be a real number, which is why it is stated for real inputs.
-/
import Idealize.ShloMosaic.PureOps.Ideal.Laws

noncomputable section

open scoped BigOperators

namespace GinSpec

variable {N E A B : Nat}

/-- The neighbour sum at node `i`, column `c`: the sum over edges `e` with target `i` of row `srow e`. -/
def seg (tgt : Fin E → ℤ) (srow : Fin E → Fin N) (z : Fin N → Fin A → EReal) (i : Fin N) (c : Fin A) : EReal :=
  ∑ e : Fin E, if tgt e = ((i : ℕ) : ℤ) then z (srow e) c else 0

/-- A linear map applied to every row: `(a · W) i j = Σ_k a i k · W k j`. -/
def lin (a : Fin N → Fin A → EReal) (W : Fin A → Fin B → EReal) (i : Fin N) (j : Fin B) : EReal :=
  ∑ k : Fin A, a i k * W k j

/-- The hidden layer: the linear map, the bias, then the positive part. -/
def hid (a : Fin N → Fin A → EReal) (W : Fin A → Fin B → EReal) (b : Fin B → EReal) (i : Fin N) (k : Fin B) : EReal :=
  max (lin a W i k + b k) 0

/-- A node's row plus its neighbour sum, the neighbour sum accumulated ONTO the row. -/
def preK (tgt : Fin E → ℤ) (srow : Fin E → Fin N) (z : Fin N → Fin A → EReal) (i : Fin N) (c : Fin A) : EReal :=
  z i c + seg tgt srow z i c

/-- A node's row plus its neighbour sum, the neighbour sum accumulated onto zero first. -/
def preR (tgt : Fin E → ℤ) (srow : Fin E → Fin N) (z : Fin N → Fin A → EReal) (i : Fin N) (c : Fin A) : EReal :=
  z i c + (0 + seg tgt srow z i c)

/-- Project-then-aggregate: rows of `h` are mapped through `W2` (plus a zero bias), the neighbour sum of the mapped
    rows is added, then the bias. -/
def outK (tgt : Fin E → ℤ) (srow : Fin E → Fin N) (x : Fin N → Fin A → EReal) (W1 : Fin A → Fin A → EReal)
    (b1 : Fin A → EReal) (W2 : Fin A → Fin B → EReal) (b2 : Fin B → EReal) (i : Fin N) (j : Fin B) : EReal :=
  (preK tgt srow (fun n c => lin (hid (preK tgt srow x) W1 b1) W2 n c + 0) i j) + b2 j

/-- Aggregate-then-project: the neighbour sum of `h` is added to `h`, the result mapped through `W2`, then the bias. -/
def outR (tgt : Fin E → ℤ) (srow : Fin E → Fin N) (x : Fin N → Fin A → EReal) (W1 : Fin A → Fin A → EReal)
    (b1 : Fin A → EReal) (W2 : Fin A → Fin B → EReal) (b2 : Fin B → EReal) (i : Fin N) (j : Fin B) : EReal :=
  lin (preR tgt srow (hid (preR tgt srow x) W1 b1)) W2 i j + b2 j

end GinSpec

end
-- ==== Proof.LibRowGather.lean ====
/-
  A row gather read at an entry.  For a matrix `x : [N, D]` and a column of start indices `idx : [E, 1]`,
  `x[idx]` (offset axis 1, collapsed axis 0, start index map [0], slices of one whole row) has at entry (e, j)
  the matrix entry (r, j), where the row r is the e-th start index read as a signed integer and clamped into
  [0, N - 1].  The column j is untouched, so a gather of rows commutes with anything that acts column by column.
-/
import Idealize.ShloMosaic.Lib.ValueIdx

noncomputable section

namespace LibRowGather

open Idealize.ShloMosaic Idealize.ShloMosaic.ValueIdx

/-- The dimension numbers of a gather of whole rows: operand `[N, D]`, start indices `[E, 1]`, result `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: the word read signed, clamped into `[0, N - 1]`. -/
def clampRow (N : Nat) (hN : 0 < N) {w : Nat} (v : BitVec w) : Fin N := ⟨min v.toInt.toNat (N - 1), by omega⟩

/-- THE ROW GATHER AT `(e, j)`: the operand's entry at the clamped row `idx[e, 0]` and the same column `j`. -/
theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N D E wf) x idx (ix2 e j)
      = x (ix2 (clampRow N hN (idx (ix2 e (0 : Fin 1)))) j) := by
  unfold Host.gather
  refine congrArg x (funext fun a => Fin.ext ?_)
  match a with
  | ⟨0, _⟩ =>
    show (rowDims N D E wf).start (ix2 e j) idx 0 + (rowDims N D E wf).batchCoord (ix2 e j) 0
      + (rowDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e j) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e j) idx 1 + (rowDims N D E wf).batchCoord (ix2 e j) 1
      + (rowDims N D E wf).offCoord (ix2 e j) 1 = j.val
    rw [GatherDims.batchCoord_eq_zero _ _ _ List.not_mem_nil]
    unfold GatherDims.start
    rw [dif_neg (show ¬ (1 : Fin 2) ∈ (rowDims N D E wf).startIndexMap by
      show ¬ (1 : Fin 2) ∈ ([0] : List (Fin 2)); decide)]
    simp only [Nat.add_zero, Nat.zero_add]
    unfold GatherDims.offCoord
    rw [dif_pos ((GatherDims.mem_sKept _ _).mpr ⟨by show ¬ (1 : Fin 2) ∈ ([0] : List (Fin 2)); decide, List.not_mem_nil⟩)]
    rfl

end LibRowGather

end
-- ==== Proof.GinEdges.lean ====
/-
  The words of the edge list, read as node numbers.

  A source word selects a row after two adjustments: a negative word counts from the end (50000 is added to it),
  and the result is clamped into [0, 49999].  A target word is compared, as a signed integer, with the node number.
  For a word that is already non-negative the first adjustment does nothing.
-/
import Idealize.ShloMosaic.Lib.ValueIdx
import Idealize.ShloMosaic.Lib.Affine
import proofs.«146721_j36627481100824_2_alg».proof.Proof.LibRowGather

noncomputable section

namespace GinEdges

open Idealize.ShloMosaic

/-- A negative index counts from the end: `w + 50000` when `w < 0` (signed), else `w`. -/
def wrap (w : BitVec 32) : BitVec 32 := Scalar.select (IntOp.cmpi .slt w 0#32) (IntOp.addi w 50000#32) w

/-- A non-negative index is left alone. -/
theorem wrap_of_nonneg {w : BitVec 32} (h : 0 ≤ w.toInt) : wrap w = w := by
  unfold wrap Scalar.select
  rw [if_neg]
  intro hc
  have hlt := (IntOp.cmpi_slt (x := w) (y := 0#32)).mp hc
  have h0 : (0#32 : BitVec 32).toInt = 0 := by decide
  omega

/-- The row a source word selects: wrapped, then clamped into `[0, 49999]`. -/
def srcRow (w : BitVec 32) : Fin 50000 := LibRowGather.clampRow 50000 (by decide) (wrap w)

end GinEdges

end
-- ==== Proof.LibRowScatter.lean ====
/-
  An accumulating scatter of whole rows, read at an entry.

  Update rows upd : [E, D] are summed into the rows of a matrix x : [N, D] that an integer column idx : [E, 1]
  names (a segment sum of rows).  Entry (e, d) of the updates lands on entry (i, j) of the result exactly when
  the e-th index, read as a signed integer and NOT clamped, equals i, and d = j; an index outside [0, N) lands
  nowhere.  Hence, at exact arithmetic, entry (i, j) of the scattered sum is the operand's entry plus the sum
  over all e of "upd (e, j) if the e-th index equals i, else 0".
-/
import Idealize.ShloMosaic.Lib.ValueIdx
import Idealize.ShloMosaic.PureOps.Ideal.Laws

noncomputable section

open scoped BigOperators

namespace LibRowScatter

open Idealize.ShloMosaic Idealize.ShloMosaic.ValueIdx

/-- The dimension numbers of a segment sum of rows into a matrix `[N, D]`: updates `[E, D]`, index column `[E, 1]`. -/
abbrev addRowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Update entry `(e, d)` lands on entry `(i, j)` exactly when the `e`-th index, read signed, is `i` and `d = j`. -/
theorem resultIdx?_rows_iff {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (addRowsDims N D E wf).resultIdx? j idx = some i
      ↔ (idx (ix2 (j 0) (0 : Fin 1))).toInt = ((i 0).val : ℤ) ∧ (j 1).val = (i 1).val := by
  have hi0 : (i 0).val < N := idx2_lt0 i
  have hi1 : (i 1).val < D := idx2_lt1 i
  have hj1 : (j 1).val < D := idx2_lt1 j
  have hstart0 : (addRowsDims N D E wf).start j idx 0 = (idx (ix2 (j 0) (0 : Fin 1))).toInt := by
    unfold ScatterDims.start
    rw [dif_pos (show (0 : Fin 2) ∈ (addRowsDims N D E wf).scatterDimsToOperandDims from List.mem_singleton.mpr rfl)]
    have hsi : (addRowsDims N D E wf).siIdx j ⟨List.idxOf (0 : Fin 2) (addRowsDims N D E wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  have hwin0 : (addRowsDims N D E wf).window j 0 = 0 := by
    unfold ScatterDims.window
    rw [dif_neg (by simp [ScatterDims.sKept, Shape.kept])]
  have hstart1 : (addRowsDims N D E wf).start j idx 1 = 0 := by
    unfold ScatterDims.start
    rw [dif_neg (by simp [ScatterDims.sKept, Shape.kept])]
  have hwin1 : (addRowsDims N D E wf).window j 1 = (j 1).val := by
    unfold ScatterDims.window
    rw [dif_pos (by simp [ScatterDims.sKept, Shape.kept])]
    rfl
  unfold ScatterDims.resultIdx?
  split
  · rename_i h
    rw [Option.some_inj]
    constructor
    · intro he
      have h0 := congrArg (fun f => (f 0).val) he
      have h1 := congrArg (fun f => (f 1).val) he
      have hh := h 0
      simp only [hstart0, hwin0] at h0 hh
      simp only [hstart1, hwin1] at h1
      constructor
      · omega
      · omega
    · rintro ⟨he, hd⟩
      funext a
      refine Fin.ext ?_
      match a with
      | ⟨0, _⟩ =>
        show ((addRowsDims N D E wf).start j idx 0 + ((addRowsDims N D E wf).window j 0 : ℕ)).toNat = (i 0).val
        rw [hstart0, hwin0]
        omega
      | ⟨1, _⟩ =>
        show ((addRowsDims N D E wf).start j idx 1 + ((addRowsDims N D E wf).window j 1 : ℕ)).toNat = (i 1).val
        rw [hstart1, hwin1]
        omega
  · rename_i h
    constructor
    · intro he; exact absurd he (by simp)
    · rintro ⟨he, hd⟩
      exfalso
      apply h
      intro a
      match a with
      | ⟨0, _⟩ =>
        show 0 ≤ (addRowsDims N D E wf).start j idx 0 + ((addRowsDims N D E wf).window j 0 : ℕ)
          ∧ (addRowsDims N D E wf).start j idx 0 + ((addRowsDims N D E wf).window j 0 : ℕ) < (N : ℤ)
        rw [hstart0, hwin0]
        omega
      | ⟨1, _⟩ =>
        show 0 ≤ (addRowsDims N D E wf).start j idx 1 + ((addRowsDims N D E wf).window j 1 : ℕ)
          ∧ (addRowsDims N D E wf).start j idx 1 + ((addRowsDims N D E wf).window j 1 : ℕ) < ((D : ℕ) : ℤ)
        rw [hstart1, hwin1]
        omega

/-- At exact arithmetic, entry `(i, j)` of the segment sum of rows is the operand's entry plus the sum over all
    `e` of "update entry `(e, j)` if the `e`-th index is `i`, else 0". -/
theorem scatterAdd_rows_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (i : Fin N) (j : Fin D) :
    Host.scatterAdd (addRowsDims N D E wf) x idx upd (ix2 i j)
      = x (ix2 i j) + ∑ e : Fin E, if (idx (ix2 e (0 : Fin 1))).toInt = ((i : ℕ) : ℤ) then upd (ix2 e j) else 0 := by
  show Ideal.hostScatterAdd (addRowsDims N D E wf) x idx upd (ix2 i j) = _
  unfold Ideal.hostScatterAdd
  congr 1
  rw [Finset.sum_filter, sum_idx2]
  refine Finset.sum_congr rfl (fun e _ => ?_)
  have hcond : ∀ d : Fin D, ((addRowsDims N D E wf).resultIdx? (ix2 e d) idx = some (ix2 i j))
      ↔ ((idx (ix2 e (0 : Fin 1))).toInt = ((i : ℕ) : ℤ) ∧ d = j) := by
    intro d
    rw [resultIdx?_rows_iff wf idx (ix2 e d) (ix2 i j)]
    exact and_congr Iff.rfl ⟨fun h => Fin.ext h, fun h => congrArg Fin.val h⟩
  by_cases hP : (idx (ix2 e (0 : Fin 1))).toInt = ((i : ℕ) : ℤ)
  · rw [if_pos hP]
    rw [Finset.sum_congr rfl (fun d _ => if_congr ((hcond d).trans (and_iff_right hP)) rfl rfl)]
    rw [Finset.sum_ite_eq' Finset.univ j (fun d => upd (ix2 e d))]
    simp
  · rw [if_neg hP]
    refine Finset.sum_eq_zero (fun d _ => ?_)
    rw [if_neg]
    intro h
    exact hP ((hcond d).mp h).1

end LibRowScatter

end
-- ==== Proof.KHost.lean ====
/-
  The host operations around the two kernel regions, entry by entry.

  From the edge list `ei : [2, 800000]` the program takes row 0 (sources) and row 1 (targets); each word is wrapped
  (a negative one counts from the end) and laid out as a column `[800000, 1]`.  The neighbour aggregation of a matrix
  `z : [50000, C]` is "gather the source rows, then add each gathered row ONTO `z` at its target row": entry (i, c)
  is z(i, c) plus the sum, over the edges whose wrapped target is i, of z(source row, c) — a row's own entry plus its
  neighbour sum.  Biases are rows broadcast down the 50000 nodes.
-/
import proofs.«146721_j36627481100824_2_alg».proof.Proof.Gen.KernelIdeal
import proofs.«146721_j36627481100824_2_alg».proof.Proof.GinSpec
import proofs.«146721_j36627481100824_2_alg».proof.Proof.GinEdges
import proofs.«146721_j36627481100824_2_alg».proof.Proof.LibRowGather
import proofs.«146721_j36627481100824_2_alg».proof.Proof.LibRowScatter
import Idealize.ShloMosaic.Lib.ValueIdx
import Idealize.ShloMosaic.Lib.Pipeline.Value
import Idealize.ShloMosaic.PureOps.Ideal.Laws

noncomputable section

open scoped BigOperators

namespace Cert.KernelIdeal.KHost

open Cert.KernelIdeal Cert.KernelIdeal.Gen Idealize.ShloMosaic Idealize.ShloMosaic.ValueIdx

/-- Row 0 of the edge list as a vector of 800000 words: the sources. -/
def edgeRow0 (ei : IVec S2x800000 32) : IVec S800000 32 :=
  shapeCast S800000 (extractStridedSlice S1x800000 ![0, 0] ei slices_S2x800000_S1x800000_0_0) shapeCasts_S1x800000_S800000

/-- Row 1 of the edge list: the targets. -/
def edgeRow1 (ei : IVec S2x800000 32) : IVec S800000 32 :=
  shapeCast S800000 (extractStridedSlice S1x800000 ![1, 0] ei slices_S2x800000_S1x800000_1_0) shapeCasts_S1x800000_S800000

/-- A vector of index words, each wrapped, laid out as a column. -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The aggregation of a 96-column matrix: gathered source rows added onto the matrix at their target rows. -/
def agg96 (x : FVec Ideal S50000x96 .f32) (sv dv : IVec S800000 32) : FVec Ideal S50000x96 .f32 :=
  Host.scatterAdd scatter_S50000x96_S800000x1_S800000x96_1_0_0_1 x (wrapCol dv)
    (Host.gather gather_S50000x96_S800000x1_S800000x96_1_0_n_n_0_1_196 x (wrapCol sv))

/-- The same for a 2-column matrix. -/
def agg2 (p : FVec Ideal S50000x2 .f32) (sv dv : IVec S800000 32) : FVec Ideal S50000x2 .f32 :=
  Host.scatterAdd scatter_S50000x2_S800000x1_S800000x2_1_0_0_1 p (wrapCol dv)
    (Host.gather gather_S50000x2_S800000x1_S800000x2_1_0_n_n_0_1_12 p (wrapCol sv))

/-- A bias `[2]` as a row, broadcast down the nodes. -/
def biasRows (b : FVec Ideal S2 .f32) : FVec Ideal S50000x2 .f32 :=
  broadcastInDim S50000x2 ![0, 1] bcast_S1x2_S50000x2_0_1 (broadcastInDim S1x2 ![1] bcast_S2_S1x2_1 b)

/-- The zero bias row the second region is given. -/
def zeroRow : FVec Ideal S1x2 .f32 :=
  shapeCast S1x2 (broadcastInDim S2 ![] bcast_S_S2 (constant (F := Ideal) S_ .f32 0x00000000#32)) shapeCasts_S2_S1x2

/-! ## Reads at an entry -/

theorem edgeRow0_apply (ei : IVec S2x800000 32) (e : Fin 800000) : edgeRow0 ei (ix1 e) = ei (ix2 (0 : Fin 2) e) := by
  unfold edgeRow0
  rw [shapeCast_apply _ shapeCasts_S1x800000_S800000 (ix1 e) (ix2 (0 : Fin 1) e)
    (by rewrite [Shape.rowMajor_val_two, Shape.rowMajor_val_one]; show 0 * 800000 + e.val = e.val; omega)]
  exact extractStridedSlice_apply ![0, 0] ei slices_S2x800000_S1x800000_0_0 (ix2 (0 : Fin 1) e) (ix2 (0 : Fin 2) e) (fun a => match a with
    | ⟨0, _⟩ => by show (0 : ℕ) = 0 + 0; rfl
    | ⟨1, _⟩ => by show e.val = 0 + e.val; omega)

theorem edgeRow1_apply (ei : IVec S2x800000 32) (e : Fin 800000) : edgeRow1 ei (ix1 e) = ei (ix2 (1 : Fin 2) e) := by
  unfold edgeRow1
  rw [shapeCast_apply _ shapeCasts_S1x800000_S800000 (ix1 e) (ix2 (0 : Fin 1) e)
    (by rewrite [Shape.rowMajor_val_two, Shape.rowMajor_val_one]; show 0 * 800000 + e.val = e.val; omega)]
  exact extractStridedSlice_apply ![1, 0] ei slices_S2x800000_S1x800000_1_0 (ix2 (0 : Fin 1) e) (ix2 (1 : Fin 2) e) (fun a => match a with
    | ⟨0, _⟩ => by show (1 : ℕ) = 1 + 0; rfl
    | ⟨1, _⟩ => by show e.val = 0 + e.val; omega)

/-- The column's entry e is the wrapped word e. -/
theorem wrapCol_apply (v : IVec S800000 32) (e : Fin 800000) : wrapCol v (ix2 e (0 : Fin 1)) = GinEdges.wrap (v (ix1 e)) := by
  unfold wrapCol
  rw [broadcastInDim_apply _ bcast_S800000_S800000x1_0 _ (ix2 e (0 : Fin 1)) (ix1 e) (fun a => match a with
    | ⟨0, _⟩ => by show e.val = if (800000 : ℕ) = 1 then 0 else e.val; rw [if_neg (by decide)])]
  rfl

/-- The aggregation of a 96-column matrix is, entry by entry, the row's own entry plus its neighbour sum. -/
theorem agg96_apply (x : FVec Ideal S50000x96 .f32) (sv dv : IVec S800000 32) (i : Fin 50000) (f : Fin 96) :
    agg96 x sv dv (ix2 i f)
      = GinSpec.preK (fun e : Fin 800000 => (GinEdges.wrap (dv (ix1 e))).toInt) (fun e : Fin 800000 => GinEdges.srcRow (sv (ix1 e)))
          (fun (n : Fin 50000) (c : Fin 96) => x (ix2 n c)) i f := by
  unfold agg96
  have hs := LibRowScatter.scatterAdd_rows_apply (N := 50000) (D := 96) (E := 800000) (φ := .f32)
    scatter_S50000x96_S800000x1_S800000x96_1_0_0_1.wf x (wrapCol dv)
    (Host.gather gather_S50000x96_S800000x1_S800000x96_1_0_n_n_0_1_196 x (wrapCol sv)) i f
  refine hs.trans ?_
  unfold GinSpec.preK GinSpec.seg
  refine congrArg (x (ix2 i f) + ·) (Finset.sum_congr rfl fun e _ => ?_)
  rw [wrapCol_apply]
  refine if_congr Iff.rfl ?_ rfl
  refine (LibRowGather.gather_rows_apply (N := 50000) (D := 96) (E := 800000) (by decide)
    gather_S50000x96_S800000x1_S800000x96_1_0_n_n_0_1_196.wf x (wrapCol sv) e f).trans ?_
  rw [wrapCol_apply]
  rfl

/-- The same for a 2-column matrix. -/
theorem agg2_apply (p : FVec Ideal S50000x2 .f32) (sv dv : IVec S800000 32) (i : Fin 50000) (j : Fin 2) :
    agg2 p sv dv (ix2 i j)
      = GinSpec.preK (fun e : Fin 800000 => (GinEdges.wrap (dv (ix1 e))).toInt) (fun e : Fin 800000 => GinEdges.srcRow (sv (ix1 e)))
          (fun (n : Fin 50000) (c : Fin 2) => p (ix2 n c)) i j := by
  unfold agg2
  have hs := LibRowScatter.scatterAdd_rows_apply (N := 50000) (D := 2) (E := 800000) (φ := .f32)
    scatter_S50000x2_S800000x1_S800000x2_1_0_0_1.wf p (wrapCol dv)
    (Host.gather gather_S50000x2_S800000x1_S800000x2_1_0_n_n_0_1_12 p (wrapCol sv)) i j
  refine hs.trans ?_
  unfold GinSpec.preK GinSpec.seg
  refine congrArg (p (ix2 i j) + ·) (Finset.sum_congr rfl fun e _ => ?_)
  rw [wrapCol_apply]
  refine if_congr Iff.rfl ?_ rfl
  refine (LibRowGather.gather_rows_apply (N := 50000) (D := 2) (E := 800000) (by decide)
    gather_S50000x2_S800000x1_S800000x2_1_0_n_n_0_1_12.wf p (wrapCol sv) e j).trans ?_
  rw [wrapCol_apply]
  rfl

/-- The broadcast bias at entry (i, j) is the bias's entry j. -/
theorem biasRows_apply (b : FVec Ideal S2 .f32) (i : Fin 50000) (j : Fin 2) : biasRows b (ix2 i j) = b (ix1 j) := by
  unfold biasRows
  rw [broadcastInDim_apply _ bcast_S1x2_S50000x2_0_1 _ (ix2 i j) (ix2 (0 : Fin 1) j) (fun a => match a with
    | ⟨0, _⟩ => by show (0 : ℕ) = if (1 : ℕ) = 1 then 0 else i.val; rw [if_pos rfl]
    | ⟨1, _⟩ => by show j.val = if (2 : ℕ) = 1 then 0 else j.val; rw [if_neg (by decide)])]
  exact broadcastInDim_apply _ bcast_S2_S1x2_1 b (ix2 (0 : Fin 1) j) (ix1 j) (fun a => match a with
    | ⟨0, _⟩ => by show j.val = if (2 : ℕ) = 1 then 0 else j.val; rw [if_neg (by decide)])

/-- The zero bias row is zero at every entry. -/
theorem zeroRow_apply (q : Fin 2) : zeroRow (ix2 (0 : Fin 1) q) = 0 := by
  unfold zeroRow
  rw [shapeCast_apply _ shapeCasts_S2_S1x2 (ix2 (0 : Fin 1) q) (ix1 q)
    (by rewrite [Shape.rowMajor_val_two, Shape.rowMajor_val_one]; show q.val = 0 * 2 + q.val; omega)]
  show Ideal.ofBits .f32 0x00000000#32 = 0
  exact Ideal.ofBits_zero_f32

/-- A bias `[96]` laid out as a row `[1, 96]`, at entry (0, q). -/
theorem biasRow96_apply (b : FVec Ideal S96 .f32) (q : Fin 96) :
    shapeCast S1x96 b shapeCasts_S96_S1x96 (ix2 (0 : Fin 1) q) = b (ix1 q) :=
  shapeCast_apply b shapeCasts_S96_S1x96 (ix2 (0 : Fin 1) q) (ix1 q)
    (by rewrite [Shape.rowMajor_val_two, Shape.rowMajor_val_one]; show q.val = 0 * 96 + q.val; omega)

end Cert.KernelIdeal.KHost

end
-- ==== Proof.KBody.lean ====
/-
  What each kernel body computes, entry by entry, at exact arithmetic.

  Both bodies are one dense layer on a block of 5000 rows: the block times the weight matrix (the narrowing of the
  operands to a shorter float format is the identity on extended reals, and the accumulator starts at zero, so the
  product is the plain sum over the 96 contracted columns), plus the bias row broadcast down the rows; the first
  body then takes the positive part.
-/
import proofs.«146721_j36627481100824_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.KBody

open Cert.KernelIdeal Cert.KernelIdeal.Gen Idealize.ShloMosaic Idealize.ShloMosaic.ValueIdx

/-- The contraction's operand indices, coordinate by coordinate. -/
theorem lhs0_0 (i : S5000x96.Idx) (q : dot_S5000x96_S96x96_S5000x96_1_0_0_1_n_n.contr.Idx) : (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem lhs0_1 (i : S5000x96.Idx) (q : dot_S5000x96_S96x96_S5000x96_1_0_0_1_n_n.contr.Idx) : (dot_S5000x96_S96x96_S5000x96_1_0_0_1_n_n.lhsIdx i q 1).val = (q ⟨0, by decide⟩).val :=
  dot_S5000x96_S96x96_S5000x96_1_0_0_1_n_n.lhsIdx_val_of_single rfl i q
theorem rhs0_0 (i : S5000x96.Idx) (q : dot_S5000x96_S96x96_S5000x96_1_0_0_1_n_n.contr.Idx) : (dot_S5000x96_S96x96_S5000x96_1_0_0_1_n_n.rhsIdx i q 0).val = (q ⟨0, by decide⟩).val :=
  dot_S5000x96_S96x96_S5000x96_1_0_0_1_n_n.rhsIdx_val_of_single rfl i q
theorem rhs0_1 (i : S5000x96.Idx) (q : dot_S5000x96_S96x96_S5000x96_1_0_0_1_n_n.contr.Idx) : (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- The block product into a zero accumulator, at entry (p, q): the sum over the contracted axis. -/
theorem matmul0_apply (l : FVec Ideal S5000x96 .bf16) (r : FVec Ideal S96x96 .bf16) (p : Fin 5000) (q : Fin 96) :
    matmul dot_S5000x96_S96x96_S5000x96_1_0_0_1_n_n none l r (constant S5000x96 .f32 0x00000000#32) (ix2 p q) = ∑ k : Fin 96, l (ix2 p k) * r (ix2 k q) := by
  show FloatOps.matmul dot_S5000x96_S96x96_S5000x96_1_0_0_1_n_n none l r (constant S5000x96 .f32 0x00000000#32) (ix2 p q) = _
  rw [Ideal.matmul_constant_zero_apply, ← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 p q) ((contrEquiv1 dot_S5000x96_S96x96_S5000x96_1_0_0_1_n_n 96 rfl rfl).symm k) = ix2 p k := funext fun a => Fin.ext (by
    match a with
    | ⟨0, _⟩ => exact lhs0_0 _ _
    | ⟨1, _⟩ => exact (lhs0_1 _ _).trans hk)
  have er : dot_S5000x96_S96x96_S5000x96_1_0_0_1_n_n.rhsIdx (ix2 p q) ((contrEquiv1 dot_S5000x96_S96x96_S5000x96_1_0_0_1_n_n 96 rfl rfl).symm k) = ix2 k q := funext fun a => Fin.ext (by
    match a with
    | ⟨0, _⟩ => exact (rhs0_0 _ _).trans hk
    | ⟨1, _⟩ => exact rhs0_1 _ _)
  rw [el, er]

/-- The contraction's operand indices, coordinate by coordinate. -/
theorem lhs1_0 (i : S5000x2.Idx) (q : dot_S5000x96_S96x2_S5000x2_1_0_0_1_n_n.contr.Idx) : (dot_S5000x96_S96x2_S5000x2_1_0_0_1_n_n.lhsIdx i q 0).val = (i 0).val := by
  unfold DotDims.lhsIdx
  rw [dif_neg (show ¬(0 : Fin S5000x96.rank) ∈ dot_S5000x96_S96x2_S5000x2_1_0_0_1_n_n.lhsBatch by decide), dif_pos (show (0 : Fin S5000x96.rank) ∈ dot_S5000x96_S96x2_S5000x2_1_0_0_1_n_n.lhsNonContracting by decide)]
  rfl
theorem lhs1_1 (i : S5000x2.Idx) (q : dot_S5000x96_S96x2_S5000x2_1_0_0_1_n_n.contr.Idx) : (dot_S5000x96_S96x2_S5000x2_1_0_0_1_n_n.lhsIdx i q 1).val = (q ⟨0, by decide⟩).val :=
  dot_S5000x96_S96x2_S5000x2_1_0_0_1_n_n.lhsIdx_val_of_single rfl i q
theorem rhs1_0 (i : S5000x2.Idx) (q : dot_S5000x96_S96x2_S5000x2_1_0_0_1_n_n.contr.Idx) : (dot_S5000x96_S96x2_S5000x2_1_0_0_1_n_n.rhsIdx i q 0).val = (q ⟨0, by decide⟩).val :=
  dot_S5000x96_S96x2_S5000x2_1_0_0_1_n_n.rhsIdx_val_of_single rfl i q
theorem rhs1_1 (i : S5000x2.Idx) (q : dot_S5000x96_S96x2_S5000x2_1_0_0_1_n_n.contr.Idx) : (dot_S5000x96_S96x2_S5000x2_1_0_0_1_n_n.rhsIdx i q 1).val = (i 1).val := by
  unfold DotDims.rhsIdx
  rw [dif_neg (show ¬(1 : Fin S96x2.rank) ∈ dot_S5000x96_S96x2_S5000x2_1_0_0_1_n_n.rhsBatch by decide), dif_pos (show (1 : Fin S96x2.rank) ∈ dot_S5000x96_S96x2_S5000x2_1_0_0_1_n_n.rhsNonContracting by decide)]
  rfl

/-- The block product into a zero accumulator, at entry (p, q): the sum over the contracted axis. -/
theorem matmul1_apply (l : FVec Ideal S5000x96 .bf16) (r : FVec Ideal S96x2 .bf16) (p : Fin 5000) (q : Fin 2) :
    matmul dot_S5000x96_S96x2_S5000x2_1_0_0_1_n_n none l r (constant S5000x2 .f32 0x00000000#32) (ix2 p q) = ∑ k : Fin 96, l (ix2 p k) * r (ix2 k q) := by
  show FloatOps.matmul dot_S5000x96_S96x2_S5000x2_1_0_0_1_n_n none l r (constant S5000x2 .f32 0x00000000#32) (ix2 p q) = _
  rw [Ideal.matmul_constant_zero_apply, ← Equiv.sum_comp (contrEquiv1 dot_S5000x96_S96x2_S5000x2_1_0_0_1_n_n 96 rfl rfl).symm]
  refine Finset.sum_congr rfl fun k _ => ?_
  have hk := contrEquiv1_symm_val dot_S5000x96_S96x2_S5000x2_1_0_0_1_n_n 96 rfl rfl k
  have el : dot_S5000x96_S96x2_S5000x2_1_0_0_1_n_n.lhsIdx (ix2 p q) ((contrEquiv1 dot_S5000x96_S96x2_S5000x2_1_0_0_1_n_n 96 rfl rfl).symm k) = ix2 p k := funext fun a => Fin.ext (by
    match a with
    | ⟨0, _⟩ => exact lhs1_0 _ _
    | ⟨1, _⟩ => exact (lhs1_1 _ _).trans hk)
  have er : dot_S5000x96_S96x2_S5000x2_1_0_0_1_n_n.rhsIdx (ix2 p q) ((contrEquiv1 dot_S5000x96_S96x2_S5000x2_1_0_0_1_n_n 96 rfl rfl).symm k) = ix2 k q := funext fun a => Fin.ext (by
    match a with
    | ⟨0, _⟩ => exact (rhs1_0 _ _).trans hk
    | ⟨1, _⟩ => exact rhs1_1 _ _)
  rw [el, er]

/-- A bias row `[1, 96]` broadcast down 5000 rows, at entry (p, q): the row's entry q. -/
theorem bias0_apply (x2 : Vec Ideal S1x96 .f32) (p : Fin 5000) (q : Fin 96) :
    broadcastTo S5000x96 (shapeCast S1x96 x2 shapeCasts_S1x96_S1x96) broadcasts_S1x96_S5000x96 (ix2 p q) = x2 (ix2 (0 : Fin 1) q) := by
  rw [shapeCast_self]
  exact broadcastTo_apply x2 broadcasts_S1x96_S5000x96 (ix2 p q) (ix2 (0 : Fin 1) q) (fun a => match a with
    | ⟨0, _⟩ => by show (0 : ℕ) = if (1 : ℕ) = 1 then 0 else _; rw [if_pos rfl]
    | ⟨1, _⟩ => by show q.val = if (96 : ℕ) = 1 then 0 else _; rw [if_neg (by decide)]; rfl)

theorem bias1_apply (x2 : Vec Ideal S1x2 .f32) (p : Fin 5000) (q : Fin 2) :
    broadcastTo S5000x2 (shapeCast S1x2 x2 shapeCasts_S1x2_S1x2) broadcasts_S1x2_S5000x2 (ix2 p q) = x2 (ix2 (0 : Fin 1) q) := by
  rw [shapeCast_self]
  exact broadcastTo_apply x2 broadcasts_S1x2_S5000x2 (ix2 p q) (ix2 (0 : Fin 1) q) (fun a => match a with
    | ⟨0, _⟩ => by show (0 : ℕ) = if (1 : ℕ) = 1 then 0 else _; rw [if_pos rfl]
    | ⟨1, _⟩ => by show q.val = if (2 : ℕ) = 1 then 0 else _; rw [if_neg (by decide)]; rfl)

/-- The first body at entry (p, q): the positive part of (row p of the block) · (column q of the weights) + bias q. -/
theorem pay0_apply (x0 : Vec Ideal S5000x96 .f32) (x1 : Vec Ideal S96x96 .f32) (x2 : Vec Ideal S1x96 .f32) (p : Fin 5000) (q : Fin 96) :
    k0_pay1 (F := Ideal) x0 x1 x2 (ix2 p q) = max ((∑ k : Fin 96, x0 (ix2 p k) * x1 (ix2 k q)) + x2 (ix2 (0 : Fin 1) q)) 0 := by
  unfold k0_pay1
  rw [maximumf_apply, addf_apply, broadcast_apply, bias0_apply, matmul0_apply, shapeCast_self]
  show max _ (Ideal.ofBits .f32 0x00000000#32) = _
  rw [Ideal.ofBits_zero_f32]
  rfl

/-- The second body at entry (p, q): (row p of the block) · (column q of the weights) + bias q. -/
theorem pay1_apply (x0 : Vec Ideal S5000x96 .f32) (x1 : Vec Ideal S96x2 .f32) (x2 : Vec Ideal S1x2 .f32) (p : Fin 5000) (q : Fin 2) :
    k1_pay1 (F := Ideal) x0 x1 x2 (ix2 p q) = (∑ k : Fin 96, x0 (ix2 p k) * x1 (ix2 k q)) + x2 (ix2 (0 : Fin 1) q) := by
  unfold k1_pay1
  rw [addf_apply, bias1_apply, matmul1_apply, shapeCast_self]
  rfl

end Cert.KernelIdeal.KBody

end
-- ==== Proof.KRegion0.lean ====
/-
  The first kernel region's result array, as one function of the arrays the region reads.

  The grid has ten points; point t reads rows 5000·t … 5000·t + 4999 of the [50000, 96] input and the whole weight
  matrix and bias row, and writes the same rows of the [50000, 96] output.  The ten blocks tile the output, and
  each block is the restriction of ONE whole-array function (the hidden layer), so the output array is that function.
-/
import proofs.«146721_j36627481100824_2_alg».proof.Proof.Gen.KernelIdeal.Frame
import proofs.«146721_j36627481100824_2_alg».proof.Proof.KBody
import proofs.«146721_j36627481100824_2_alg».proof.Proof.GinSpec
import Idealize.ShloMosaic.Lib.Pipeline.Value

set_option maxRecDepth 16384

noncomputable section

open scoped BigOperators

namespace Cert.KernelIdeal.KRegion0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the row-block windows sit at block `t`, the whole-array
    windows at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first region's result as one function of the three arrays it reads, as the region finds them: the hidden
    layer — each row times the weight matrix, plus the bias, positive part. -/
def hidden (c : Dev nD) : S50000x96.Idx → Elt Ideal .f32 := fun i =>
  GinSpec.hid (fun (n : Fin 50000) (k : Fin 96) => (V c main_v17 : S50000x96.Idx → Elt Ideal .f32) (ix2 n k))
    (fun (k : Fin 96) (q : Fin 96) => (V c main_arg2 : S96x96.Idx → Elt Ideal .f32) (ix2 k q))
    (fun q : Fin 96 => (V c main_v18 : S1x96.Idx → Elt Ideal .f32) (ix2 (0 : Fin 1) q)) (i 0) (i 1)

/-- What point `t` writes back is block `t` of that array: rows 5000·t … 5000·t + 4999. -/
theorem flushed0_eq (c : Dev nD) (t : Fin cfg0.N) :
    (dat0 V c).flushed 3 t = ((cfg0.win 3).blk t).view.read (Elt Ideal) (hidden V c) := by
  show (cfg0.win 3).cut (grid0.coords t) ((dat0 V c).after 3 t) = _
  rw [after0_3]
  unfold out0_3
  rw [View.canon_unit_zero hz]
  simp only [View.ld_unit_zero (S := S5000x96) hz, View.ld_unit_zero (S := S96x96) hz, View.ld_unit_zero (S := S1x96) hz]
  obtain ⟨e0, e1, e2, e3, e4, e5, e6, e7⟩ := idx_facts0 t
  have ht : t.val < 10 := by have h := t.isLt; have hN : cfg0.N = 10 := N_0; omega
  funext j
  obtain ⟨p, q, rfl⟩ : ∃ (p : Fin 5000) (q : Fin 96), j = ix2 p q := ⟨j 0, j 1, eq_ix2 j⟩
  show k0_pay1 (iblk0 V c 0 t) (iblk0 V c 1 t) (iblk0 V c 2 t) (ix2 p q) = hidden V c (((cfg0.win 3).blk t).view.emb (ix2 p q))
  refine (KBody.pay0_apply (iblk0 V c 0 t) (iblk0 V c 1 t) (iblk0 V c 2 t) p q).trans ?_
  have hp : p.val < 5000 := p.isLt
  have hq : q.val < 96 := q.isLt
  have hrow : ∀ k : Fin 96, (iblk0 V c 0 t : Vec Ideal S5000x96 .f32) (ix2 p k)
      = (V c main_v17 : S50000x96.Idx → Elt Ideal .f32) (ix2 (⟨5000 * t.val + p.val, by omega⟩ : Fin 50000) k) := fun k => by
    show (V c main_v17 : S50000x96.Idx → Elt Ideal .f32) (((cfg0.win 0).blk t).view.emb (ix2 p k)) = _
    refine congrArg _ (funext fun a => Fin.ext ?_)
    match a with
    | ⟨0, _⟩ => show win0_0.index t (0 : Fin 2) * 5000 + 1 * p.val = 5000 * t.val + p.val; rw [e0]; omega
    | ⟨1, _⟩ => show win0_0.index t (1 : Fin 2) * 96 + 1 * k.val = k.val; rw [e1]; omega
  have hw : ∀ k : Fin 96, (iblk0 V c 1 t : Vec Ideal S96x96 .f32) (ix2 k q)
      = (V c main_arg2 : S96x96.Idx → Elt Ideal .f32) (ix2 k q) := fun k => by
    show (V c main_arg2 : S96x96.Idx → Elt Ideal .f32) (((cfg0.win 1).blk t).view.emb (ix2 k q)) = _
    refine congrArg _ (funext fun a => Fin.ext ?_)
    match a with
    | ⟨0, _⟩ => show win0_1.index t (0 : Fin 2) * 96 + 1 * k.val = k.val; rw [e2]; omega
    | ⟨1, _⟩ => show win0_1.index t (1 : Fin 2) * 96 + 1 * q.val = q.val; rw [e3]; omega
  have hb : (iblk0 V c 2 t : Vec Ideal S1x96 .f32) (ix2 (0 : Fin 1) q)
      = (V c main_v18 : S1x96.Idx → Elt Ideal .f32) (ix2 (0 : Fin 1) q) := by
    show (V c main_v18 : S1x96.Idx → Elt Ideal .f32) (((cfg0.win 2).blk t).view.emb (ix2 (0 : Fin 1) q)) = _
    refine congrArg _ (funext fun a => Fin.ext ?_)
    match a with
    | ⟨0, _⟩ => show win0_2.index t (0 : Fin 2) * 1 + 1 * 0 = 0; rw [e4]
    | ⟨1, _⟩ => show win0_2.index t (1 : Fin 2) * 96 + 1 * q.val = q.val; rw [e5]; omega
  have hi : ((cfg0.win 3).blk t).view.emb (ix2 p q) = (ix2 (⟨5000 * t.val + p.val, by omega⟩ : Fin 50000) q : S50000x96.Idx) := by
    funext a
    refine Fin.ext ?_
    match a with
    | ⟨0, _⟩ => show win0_3.index t (0 : Fin 2) * 5000 + 1 * p.val = 5000 * t.val + p.val; rw [e6]; omega
    | ⟨1, _⟩ => show win0_3.index t (1 : Fin 2) * 96 + 1 * q.val = q.val; rw [e7]; omega
  rw [hi, hb, Finset.sum_congr rfl (fun k _ => by rw [hrow k, hw k])]
  rfl

/-- An index lies in point `t`'s block iff its row is among rows 5000·t … 5000·t + 4999. -/
theorem mem_blk0 (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v19).slice (win0_3.rect t)).set ↔ _
  rw [View.set_slice_whole, Rect.mem_set_unit]
  exact Iff.rfl

/-- THE ARRAY after the region: the hidden layer of the arrays the region reads. -/
theorem final0 (c : Dev nD) : (dat0 V c).arrAt 3 cfg0.N = hidden V c :=
  (dat0 V c).arrAt_eq_of_cover 3 (hidden V c) (fun t _ => flushed0_eq V c t) fun i => by
    have hi0 : (i 0).val < 50000 := (i 0).isLt
    have hi1 : (i 1).val < 96 := (i 1).isLt
    have hN : cfg0.N = 10 := N_0
    refine ⟨⟨(i 0).val / 5000, by rw [hN]; omega⟩, flush0_3 _, ?_⟩
    rw [mem_blk0]
    obtain ⟨e0, e1, e2, e3, e4, e5, e6, e7⟩ := idx_facts0 ⟨(i 0).val / 5000, by rw [hN]; omega⟩
    intro a
    match a with
    | ⟨0, _⟩ => show win0_3.index _ (0 : Fin 2) * 5000 ≤ (i 0).val ∧ (i 0).val < win0_3.index _ (0 : Fin 2) * 5000 + 5000; rw [e6]; show (i 0).val / 5000 * 5000 ≤ (i 0).val ∧ (i 0).val < (i 0).val / 5000 * 5000 + 5000; omega
    | ⟨1, _⟩ => show win0_3.index _ (1 : Fin 2) * 96 ≤ (i 1).val ∧ (i 1).val < win0_3.index _ (1 : Fin 2) * 96 + 96; rw [e7]; omega

end Cert.KernelIdeal.KRegion0

end
-- ==== Proof.KRegion1.lean ====
/-
  The second kernel region's result array, as one function of the arrays the region reads.

  Ten grid points again; point t reads rows 5000·t … 5000·t + 4999 of the [50000, 96] input and the whole [96, 2]
  weight matrix and [1, 2] bias row, and writes the same rows of the [50000, 2] output.  The blocks tile the output
  and each is the restriction of one whole-array function (rows times the weight matrix, plus the bias row).
-/
import proofs.«146721_j36627481100824_2_alg».proof.Proof.Gen.KernelIdeal.Frame
import proofs.«146721_j36627481100824_2_alg».proof.Proof.KBody
import proofs.«146721_j36627481100824_2_alg».proof.Proof.GinSpec
import Idealize.ShloMosaic.Lib.Pipeline.Value

set_option maxRecDepth 16384

noncomputable section

open scoped BigOperators

namespace Cert.KernelIdeal.KRegion1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the row-block windows sit at block `t`, the whole-array
    windows at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The second region's result as one function of the three arrays it reads, as the region finds them: each row
    times the [96, 2] weight matrix, plus the bias row. -/
def projected (c : Dev nD) : S50000x2.Idx → Elt Ideal .f32 := fun i =>
  GinSpec.lin (fun (n : Fin 50000) (k : Fin 96) => (V c main_v19 : S50000x96.Idx → Elt Ideal .f32) (ix2 n k))
    (fun (k : Fin 96) (q : Fin 2) => (V c main_arg4 : S96x2.Idx → Elt Ideal .f32) (ix2 k q)) (i 0) (i 1)
    + (V c main_v21 : S1x2.Idx → Elt Ideal .f32) (ix2 (0 : Fin 1) (i 1))

/-- What point `t` writes back is block `t` of that array: rows 5000·t … 5000·t + 4999. -/
theorem flushed1_eq (c : Dev nD) (t : Fin cfg1.N) :
    (dat1 V c).flushed 3 t = ((cfg1.win 3).blk t).view.read (Elt Ideal) (projected V c) := by
  show (cfg1.win 3).cut (grid1.coords t) ((dat1 V c).after 3 t) = _
  rw [after1_3]
  unfold out1_3
  rw [View.canon_unit_zero hz]
  simp only [View.ld_unit_zero (S := S5000x96) hz, View.ld_unit_zero (S := S96x2) hz, View.ld_unit_zero (S := S1x2) hz]
  obtain ⟨e0, e1, e2, e3, e4, e5, e6, e7⟩ := idx_facts1 t
  have ht : t.val < 10 := by have h := t.isLt; have hN : cfg1.N = 10 := N_1; omega
  funext j
  obtain ⟨p, q, rfl⟩ : ∃ (p : Fin 5000) (q : Fin 2), j = ix2 p q := ⟨j 0, j 1, eq_ix2 j⟩
  show k1_pay1 (iblk1 V c 0 t) (iblk1 V c 1 t) (iblk1 V c 2 t) (ix2 p q) = projected V c (((cfg1.win 3).blk t).view.emb (ix2 p q))
  refine (KBody.pay1_apply (iblk1 V c 0 t) (iblk1 V c 1 t) (iblk1 V c 2 t) p q).trans ?_
  have hp : p.val < 5000 := p.isLt
  have hq : q.val < 2 := q.isLt
  have hrow : ∀ k : Fin 96, (iblk1 V c 0 t : Vec Ideal S5000x96 .f32) (ix2 p k)
      = (V c main_v19 : S50000x96.Idx → Elt Ideal .f32) (ix2 (⟨5000 * t.val + p.val, by omega⟩ : Fin 50000) k) := fun k => by
    show (V c main_v19 : S50000x96.Idx → Elt Ideal .f32) (((cfg1.win 0).blk t).view.emb (ix2 p k)) = _
    refine congrArg _ (funext fun a => Fin.ext ?_)
    match a with
    | ⟨0, _⟩ => show win1_0.index t (0 : Fin 2) * 5000 + 1 * p.val = 5000 * t.val + p.val; rw [e0]; omega
    | ⟨1, _⟩ => show win1_0.index t (1 : Fin 2) * 96 + 1 * k.val = k.val; rw [e1]; omega
  have hw : ∀ k : Fin 96, (iblk1 V c 1 t : Vec Ideal S96x2 .f32) (ix2 k q)
      = (V c main_arg4 : S96x2.Idx → Elt Ideal .f32) (ix2 k q) := fun k => by
    show (V c main_arg4 : S96x2.Idx → Elt Ideal .f32) (((cfg1.win 1).blk t).view.emb (ix2 k q)) = _
    refine congrArg _ (funext fun a => Fin.ext ?_)
    match a with
    | ⟨0, _⟩ => show win1_1.index t (0 : Fin 2) * 96 + 1 * k.val = k.val; rw [e2]; omega
    | ⟨1, _⟩ => show win1_1.index t (1 : Fin 2) * 2 + 1 * q.val = q.val; rw [e3]; omega
  have hb : (iblk1 V c 2 t : Vec Ideal S1x2 .f32) (ix2 (0 : Fin 1) q)
      = (V c main_v21 : S1x2.Idx → Elt Ideal .f32) (ix2 (0 : Fin 1) q) := by
    show (V c main_v21 : S1x2.Idx → Elt Ideal .f32) (((cfg1.win 2).blk t).view.emb (ix2 (0 : Fin 1) q)) = _
    refine congrArg _ (funext fun a => Fin.ext ?_)
    match a with
    | ⟨0, _⟩ => show win1_2.index t (0 : Fin 2) * 1 + 1 * 0 = 0; rw [e4]
    | ⟨1, _⟩ => show win1_2.index t (1 : Fin 2) * 2 + 1 * q.val = q.val; rw [e5]; omega
  have hi : ((cfg1.win 3).blk t).view.emb (ix2 p q) = (ix2 (⟨5000 * t.val + p.val, by omega⟩ : Fin 50000) q : S50000x2.Idx) := by
    funext a
    refine Fin.ext ?_
    match a with
    | ⟨0, _⟩ => show win1_3.index t (0 : Fin 2) * 5000 + 1 * p.val = 5000 * t.val + p.val; rw [e6]; omega
    | ⟨1, _⟩ => show win1_3.index t (1 : Fin 2) * 2 + 1 * q.val = q.val; rw [e7]; omega
  rw [hi, hb, Finset.sum_congr rfl (fun k _ => by rw [hrow k, hw k])]
  rfl

/-- An index lies in point `t`'s block iff its row is among rows 5000·t … 5000·t + 4999. -/
theorem mem_blk1 (t : Fin cfg1.N) (i : S50000x2.Idx) :
    i ∈ ((cfg1.win 3).blk t).view.set ↔ ∀ a : Fin 2, win1_3.index t a * S5000x2.size a ≤ (i a).val ∧ (i a).val < win1_3.index t a * S5000x2.size a + S5000x2.size a := by
  show i ∈ ((View.whole main_v22).slice (win1_3.rect t)).set ↔ _
  rw [View.set_slice_whole, Rect.mem_set_unit]
  exact Iff.rfl

/-- THE ARRAY after the region: each row of the region's input times the weight matrix, plus the bias row. -/
theorem final1 (c : Dev nD) : (dat1 V c).arrAt 3 cfg1.N = projected V c :=
  (dat1 V c).arrAt_eq_of_cover 3 (projected V c) (fun t _ => flushed1_eq V c t) fun i => by
    have hi0 : (i 0).val < 50000 := (i 0).isLt
    have hi1 : (i 1).val < 2 := (i 1).isLt
    have hN : cfg1.N = 10 := N_1
    refine ⟨⟨(i 0).val / 5000, by rw [hN]; omega⟩, flush1_3 _, ?_⟩
    rw [mem_blk1]
    obtain ⟨e0, e1, e2, e3, e4, e5, e6, e7⟩ := idx_facts1 ⟨(i 0).val / 5000, by rw [hN]; omega⟩
    intro a
    match a with
    | ⟨0, _⟩ => show win1_3.index _ (0 : Fin 2) * 5000 ≤ (i 0).val ∧ (i 0).val < win1_3.index _ (0 : Fin 2) * 5000 + 5000; rw [e6]; show (i 0).val / 5000 * 5000 ≤ (i 0).val ∧ (i 0).val < (i 0).val / 5000 * 5000 + 5000; omega
    | ⟨1, _⟩ => show win1_3.index _ (1 : Fin 2) * 2 ≤ (i 1).val ∧ (i 1).val < win1_3.index _ (1 : Fin 2) * 2 + 2; rw [e7]; omega

end Cert.KernelIdeal.KRegion1

end
-- ==== Proof.KValue.lean ====
/-
  The kernel program's result, entry by entry, as the project-then-aggregate network of its inputs.

  The result buffer's final contents are followed back through the program's five segments.  Before the first
  region the host builds the first layer's input (each node's row plus its neighbour sum) and lays the bias out as a
  row; the first region leaves the hidden layer; the host then prepares a zero bias row; the second region leaves the
  hidden rows mapped through the [96, 2] matrix; and the last host stretch adds to each mapped row its neighbour sum,
  then the bias.  Buffers a segment does not write keep their contents across it.
-/
import proofs.«146721_j36627481100824_2_alg».proof.Proof.Gen.KernelIdeal.Frame
import proofs.«146721_j36627481100824_2_alg».proof.Proof.KHost
import proofs.«146721_j36627481100824_2_alg».proof.Proof.KRegion0
import proofs.«146721_j36627481100824_2_alg».proof.Proof.KRegion1
import Idealize.ShloMosaic.Lib.StableHlo.Run
import Idealize.ShloMosaic.PureOps.Ideal.Laws

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## After the first host stretch -/

set_option maxHeartbeats 1000000 in
/-- The first layer's input: the node features with the neighbour sum added on. -/
theorem W1_v17 (c : Dev nD) : (W1 m ρ c (Proc.devRef .tc main_v17) : (⟨S50000x96, .f32⟩ : BufTy).Contents (Elt Ideal))
    = KHost.agg96 (m ((c.tc : Thread nD τ).loc main_arg0)) (KHost.edgeRow0 (m ((c.tc : Thread nD τ).loc main_arg1))) (KHost.edgeRow1 (m ((c.tc : Thread nD τ).loc main_arg1))) := by
  show StableHlo.after hostOps0 (W0 m ρ c) (Proc.devRef .tc main_v17) = _
  after_results_simp
  rfl

set_option maxHeartbeats 1000000 in
theorem W1_v18 (c : Dev nD) : (W1 m ρ c (Proc.devRef .tc main_v18) : (⟨S1x96, .f32⟩ : BufTy).Contents (Elt Ideal))
    = shapeCast S1x96 (m ((c.tc : Thread nD τ).loc main_arg3)) shapeCasts_S96_S1x96 := by
  show StableHlo.after hostOps0 (W0 m ρ c) (Proc.devRef .tc main_v18) = _
  after_results_simp
  rfl

set_option maxHeartbeats 1000000 in
theorem W1_v1 (c : Dev nD) : (W1 m ρ c (Proc.devRef .tc main_v1) : (⟨S800000, .i32⟩ : BufTy).Contents (Elt Ideal))
    = KHost.edgeRow0 (m ((c.tc : Thread nD τ).loc main_arg1)) := by
  show StableHlo.after hostOps0 (W0 m ρ c) (Proc.devRef .tc main_v1) = _
  after_results_simp
  rfl

set_option maxHeartbeats 1000000 in
theorem W1_v3 (c : Dev nD) : (W1 m ρ c (Proc.devRef .tc main_v3) : (⟨S800000, .i32⟩ : BufTy).Contents (Elt Ideal))
    = KHost.edgeRow1 (m ((c.tc : Thread nD τ).loc main_arg1)) := by
  show StableHlo.after hostOps0 (W0 m ρ c) (Proc.devRef .tc main_v3) = _
  after_results_simp
  rfl

set_option maxHeartbeats 1000000 in
theorem W1_arg2 (c : Dev nD) : W1 m ρ c (Proc.devRef .tc main_arg2) = m ((c.tc : Thread nD τ).loc main_arg2) := by
  show StableHlo.after hostOps0 (W0 m ρ c) (Proc.devRef .tc main_arg2) = _
  after_results_simp

set_option maxHeartbeats 1000000 in
theorem W1_arg4 (c : Dev nD) : W1 m ρ c (Proc.devRef .tc main_arg4) = m ((c.tc : Thread nD τ).loc main_arg4) := by
  show StableHlo.after hostOps0 (W0 m ρ c) (Proc.devRef .tc main_arg4) = _
  after_results_simp

set_option maxHeartbeats 1000000 in
theorem W1_arg5 (c : Dev nD) : W1 m ρ c (Proc.devRef .tc main_arg5) = m ((c.tc : Thread nD τ).loc main_arg5) := by
  show StableHlo.after hostOps0 (W0 m ρ c) (Proc.devRef .tc main_arg5) = _
  after_results_simp

/-! ## After the first region -/

/-- The first region leaves the hidden layer in its output array. -/
theorem W2_v19 (c : Dev nD) : (W2 m ρ c (Proc.devRef .tc main_v19) : (⟨S50000x96, .f32⟩ : BufTy).Contents (Elt Ideal)) = KRegion0.hidden (V1 m ρ) c :=
  (W2_arr m ρ c (3 : Fin cfg0.W)).trans (KRegion0.final0 (V1 m ρ) c)

theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_arg4 (c : Dev nD) : W2 m ρ c (Proc.devRef .tc main_arg4) = W1 m ρ c (Proc.devRef .tc main_arg4) := W2_of_ne m ρ c main_arg4 (by decide)
theorem W2_arg5 (c : Dev nD) : W2 m ρ c (Proc.devRef .tc main_arg5) = W1 m ρ c (Proc.devRef .tc main_arg5) := W2_of_ne m ρ c main_arg5 (by decide)

/-! ## After the second host stretch -/

theorem W3_v19 (c : Dev nD) : W3 m ρ c (Proc.devRef .tc main_v19) = W2 m ρ c (Proc.devRef .tc main_v19) := by
  show StableHlo.after hostOps1 (W2 m ρ c) (Proc.devRef .tc main_v19) = _
  after_results_simp
theorem W3_v1 (c : Dev nD) : W3 m ρ c (Proc.devRef .tc main_v1) = W2 m ρ c (Proc.devRef .tc main_v1) := by
  show StableHlo.after hostOps1 (W2 m ρ c) (Proc.devRef .tc main_v1) = _
  after_results_simp
theorem W3_v3 (c : Dev nD) : W3 m ρ c (Proc.devRef .tc main_v3) = W2 m ρ c (Proc.devRef .tc main_v3) := by
  show StableHlo.after hostOps1 (W2 m ρ c) (Proc.devRef .tc main_v3) = _
  after_results_simp
theorem W3_arg4 (c : Dev nD) : W3 m ρ c (Proc.devRef .tc main_arg4) = W2 m ρ c (Proc.devRef .tc main_arg4) := by
  show StableHlo.after hostOps1 (W2 m ρ c) (Proc.devRef .tc main_arg4) = _
  after_results_simp
theorem W3_arg5 (c : Dev nD) : W3 m ρ c (Proc.devRef .tc main_arg5) = W2 m ρ c (Proc.devRef .tc main_arg5) := by
  show StableHlo.after hostOps1 (W2 m ρ c) (Proc.devRef .tc main_arg5) = _
  after_results_simp
/-- The second region's bias row is zero. -/
theorem W3_v21 (c : Dev nD) : (W3 m ρ c (Proc.devRef .tc main_v21) : (⟨S1x2, .f32⟩ : BufTy).Contents (Elt Ideal)) = KHost.zeroRow := by
  show StableHlo.after hostOps1 (W2 m ρ c) (Proc.devRef .tc main_v21) = _
  after_results_simp
  rfl

/-! ## After the second region -/

/-- The second region leaves the mapped rows in its output array. -/
theorem W4_v22 (c : Dev nD) : (W4 m ρ c (Proc.devRef .tc main_v22) : (⟨S50000x2, .f32⟩ : BufTy).Contents (Elt Ideal)) = KRegion1.projected (V3 m ρ) c :=
  (W4_arr m ρ c (3 : Fin cfg1.W)).trans (KRegion1.final1 (V3 m ρ) c)

theorem W4_v1 (c : Dev nD) : W4 m ρ c (Proc.devRef .tc main_v1) = W3 m ρ c (Proc.devRef .tc main_v1) := W4_of_ne m ρ c main_v1 (by decide)
theorem W4_v3 (c : Dev nD) : W4 m ρ c (Proc.devRef .tc main_v3) = W3 m ρ c (Proc.devRef .tc main_v3) := W4_of_ne m ρ c main_v3 (by decide)
theorem W4_arg5 (c : Dev nD) : W4 m ρ c (Proc.devRef .tc main_arg5) = W3 m ρ c (Proc.devRef .tc main_arg5) := W4_of_ne m ρ c main_arg5 (by decide)

/-! ## The result -/

set_option maxHeartbeats 1000000 in
/-- The last host stretch: the mapped rows with their neighbour sum added on, plus the bias. -/
theorem W5_v39 (c : Dev nD) : (W5 m ρ c (Proc.devRef .tc main_v39) : (⟨S50000x2, .f32⟩ : BufTy).Contents (Elt Ideal))
    = addf (KHost.agg2 (W4 m ρ c (Proc.devRef .tc main_v22)) (W4 m ρ c (Proc.devRef .tc main_v1)) (W4 m ρ c (Proc.devRef .tc main_v3)))
        (KHost.biasRows (W4 m ρ c (Proc.devRef .tc main_arg5))) := by
  show StableHlo.after hostOps2 (W4 m ρ c) (Proc.devRef .tc main_v39) = _
  after_results_simp
  rfl

end Cert.KernelIdeal.KValue

end
-- ==== Proof.KResult.lean ====
/-
  The kernel program's result at entry (i, j) is the project-then-aggregate network of its six inputs.

  Putting the segments together: the result is (mapped rows with their neighbour sum added on) + bias; the mapped
  rows are the hidden layer times the [96, 2] matrix plus a zero row; the hidden layer is the dense layer of (node
  features with their neighbour sum added on).  The edge words enter through two functions: the target of edge e
  (wrapped, read signed) and its source row (wrapped, clamped).
-/
import proofs.«146721_j36627481100824_2_alg».proof.Proof.KValue

set_option maxRecDepth 16384

noncomputable section

open scoped BigOperators

namespace Cert.KernelIdeal.KResult

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The target of edge e: the word of row 1, wrapped, read signed. -/
def tgt (ei : IVec S2x800000 32) (e : Fin 800000) : ℤ := (GinEdges.wrap (ei (ix2 (1 : Fin 2) e))).toInt
/-- The source row of edge e: the word of row 0, wrapped and clamped. -/
def srow (ei : IVec S2x800000 32) (e : Fin 800000) : Fin 50000 := GinEdges.srcRow (ei (ix2 (0 : Fin 2) e))

/-- The aggregation of a 96-column matrix through the edge list's own rows. -/
theorem agg96_edges (x : FVec Ideal S50000x96 .f32) (ei : IVec S2x800000 32) :
    (fun (a : Fin 50000) (b : Fin 96) => KHost.agg96 x (KHost.edgeRow0 ei) (KHost.edgeRow1 ei) (ix2 a b))
      = GinSpec.preK (tgt ei) (srow ei) (fun (a : Fin 50000) (b : Fin 96) => x (ix2 a b)) := by
  funext a b
  rw [KHost.agg96_apply]
  simp only [KHost.edgeRow0_apply, KHost.edgeRow1_apply]
  rfl

theorem agg2_edges (p : FVec Ideal S50000x2 .f32) (ei : IVec S2x800000 32) (i : Fin 50000) (j : Fin 2) :
    KHost.agg2 p (KHost.edgeRow0 ei) (KHost.edgeRow1 ei) (ix2 i j)
      = GinSpec.preK (tgt ei) (srow ei) (fun (a : Fin 50000) (b : Fin 2) => p (ix2 a b)) i j := by
  rw [KHost.agg2_apply]
  simp only [KHost.edgeRow0_apply, KHost.edgeRow1_apply]
  rfl

/-- The hidden layer the first region leaves. -/
theorem hidden_eq (c : Dev nD) :
    (fun (a : Fin 50000) (b : Fin 96) => (W2 m ρ c (Proc.devRef .tc main_v19) : (⟨S50000x96, .f32⟩ : BufTy).Contents (Elt Ideal)) (ix2 a b))
      = GinSpec.hid (GinSpec.preK (tgt (m ((c.tc : Thread nD τ).loc main_arg1))) (srow (m ((c.tc : Thread nD τ).loc main_arg1))) (fun (a : Fin 50000) (b : Fin 96) => (m ((c.tc : Thread nD τ).loc main_arg0)) (ix2 a b)))
          (fun (a b : Fin 96) => (m ((c.tc : Thread nD τ).loc main_arg2)) (ix2 a b)) (fun q : Fin 96 => (m ((c.tc : Thread nD τ).loc main_arg3)) (ix1 q)) := by
  funext a b
  rw [KValue.W2_v19]
  unfold KRegion0.hidden
  show GinSpec.hid (fun (n : Fin 50000) (k : Fin 96) => (W1 m ρ c (Proc.devRef .tc main_v17) : (⟨S50000x96, .f32⟩ : BufTy).Contents (Elt Ideal)) (ix2 n k))
      (fun (k q : Fin 96) => (W1 m ρ c (Proc.devRef .tc main_arg2) : (⟨S96x96, .f32⟩ : BufTy).Contents (Elt Ideal)) (ix2 k q))
      (fun q : Fin 96 => (W1 m ρ c (Proc.devRef .tc main_v18) : (⟨S1x96, .f32⟩ : BufTy).Contents (Elt Ideal)) (ix2 (0 : Fin 1) q)) a b = _
  rw [KValue.W1_v17, KValue.W1_arg2, KValue.W1_v18, agg96_edges]
  have e3 : (fun q : Fin 96 => shapeCast S1x96 (m ((c.tc : Thread nD τ).loc main_arg3)) shapeCasts_S96_S1x96 (ix2 (0 : Fin 1) q)) = fun q : Fin 96 => (m ((c.tc : Thread nD τ).loc main_arg3)) (ix1 q) :=
    funext fun q => KHost.biasRow96_apply _ q
  rw [e3]

/-- The mapped rows the second region leaves. -/
theorem projected_eq (c : Dev nD) :
    (fun (a : Fin 50000) (b : Fin 2) => (W4 m ρ c (Proc.devRef .tc main_v22) : (⟨S50000x2, .f32⟩ : BufTy).Contents (Elt Ideal)) (ix2 a b))
      = fun (a : Fin 50000) (b : Fin 2) => GinSpec.lin (GinSpec.hid (GinSpec.preK (tgt (m ((c.tc : Thread nD τ).loc main_arg1))) (srow (m ((c.tc : Thread nD τ).loc main_arg1))) (fun (a : Fin 50000) (b : Fin 96) => (m ((c.tc : Thread nD τ).loc main_arg0)) (ix2 a b)))
          (fun (a b : Fin 96) => (m ((c.tc : Thread nD τ).loc main_arg2)) (ix2 a b)) (fun q : Fin 96 => (m ((c.tc : Thread nD τ).loc main_arg3)) (ix1 q))) (fun (a : Fin 96) (b : Fin 2) => (m ((c.tc : Thread nD τ).loc main_arg4)) (ix2 a b)) a b + 0 := by
  funext a b
  rw [KValue.W4_v22]
  unfold KRegion1.projected
  show GinSpec.lin (fun (n : Fin 50000) (k : Fin 96) => (W3 m ρ c (Proc.devRef .tc main_v19) : (⟨S50000x96, .f32⟩ : BufTy).Contents (Elt Ideal)) (ix2 n k))
      (fun (k : Fin 96) (q : Fin 2) => (W3 m ρ c (Proc.devRef .tc main_arg4) : (⟨S96x2, .f32⟩ : BufTy).Contents (Elt Ideal)) (ix2 k q)) a b
      + (W3 m ρ c (Proc.devRef .tc main_v21) : (⟨S1x2, .f32⟩ : BufTy).Contents (Elt Ideal)) (ix2 (0 : Fin 1) b) = _
  rw [KValue.W3_v21, KHost.zeroRow_apply, KValue.W3_v19, KValue.W3_arg4, KValue.W2_arg4, KValue.W1_arg4, hidden_eq]

/-- THE KERNEL PROGRAM'S RESULT at entry (i, j). -/
theorem result_apply (c : Dev nD) (i : Fin 50000) (j : Fin 2) :
    (W5 m ρ c (Proc.devRef .tc main_v39) : (⟨S50000x2, .f32⟩ : BufTy).Contents (Elt Ideal)) (ix2 i j)
      = GinSpec.outK (tgt (m ((c.tc : Thread nD τ).loc main_arg1))) (srow (m ((c.tc : Thread nD τ).loc main_arg1))) (fun (a : Fin 50000) (b : Fin 96) => (m ((c.tc : Thread nD τ).loc main_arg0)) (ix2 a b))
          (fun (a b : Fin 96) => (m ((c.tc : Thread nD τ).loc main_arg2)) (ix2 a b)) (fun q : Fin 96 => (m ((c.tc : Thread nD τ).loc main_arg3)) (ix1 q))
          (fun (a : Fin 96) (b : Fin 2) => (m ((c.tc : Thread nD τ).loc main_arg4)) (ix2 a b)) (fun q : Fin 2 => (m ((c.tc : Thread nD τ).loc main_arg5)) (ix1 q)) i j := by
  rw [KValue.W5_v39, addf_apply, KHost.biasRows_apply,
    KValue.W4_v1, KValue.W3_v1, KValue.W2_v1, KValue.W1_v1,
    KValue.W4_v3, KValue.W3_v3, KValue.W2_v3, KValue.W1_v3,
    KValue.W4_arg5, KValue.W3_arg5, KValue.W2_arg5, KValue.W1_arg5,
    agg2_edges, projected_eq]
  rfl

end Cert.KernelIdeal.KResult

end
-- ==== Proof.RefValue.lean ====
/-
  The reference program's result, entry by entry, as the aggregate-then-project network of its inputs.

  Its stages are read one operation at a time.  The two that move rows around are read here: the gather picks, for
  edge e, the row named by the wrapped and clamped source word; the accumulating scatter gives node n the sum of the
  gathered rows of the edges whose target word, read signed, is n — accumulated onto zero, and then added to the
  node's own row.  Everything else (matrix products as sums over the 96 contracted columns, biases broadcast down
  the nodes, the positive part) is pointwise.
-/
import proofs.«146721_j36627481100824_2_alg».proof.Proof.Gen.ReferenceIdeal.Read
import proofs.«146721_j36627481100824_2_alg».proof.Proof.GinSpec
import proofs.«146721_j36627481100824_2_alg».proof.Proof.GinEdges
import proofs.«146721_j36627481100824_2_alg».proof.Proof.LibRowGather
import proofs.«146721_j36627481100824_2_alg».proof.Proof.LibRowScatter

noncomputable section

open scoped BigOperators

namespace Cert.ReferenceIdeal.RefValue

open Cert.ReferenceIdeal Cert.ReferenceIdeal.Read Idealize.ShloMosaic Idealize.ShloMosaic.ValueIdx

/-! ## The index words -/

theorem srcWord9 (x1 : (⟨S2x800000, .i32⟩ : BufTy).Contents (Elt Ideal)) (e : Fin 800000) :
    val_main_v9 (F := Ideal) x1 (ix2 e (0 : Fin 1)) = GinEdges.wrap (x1 (ix2 (0 : Fin 2) e)) := by
  have h1 : val_main_v1 (F := Ideal) x1 (idx_main_v9 (ix2 e (0 : Fin 1))) = x1 (ix2 (0 : Fin 2) e) := by
    rw [val_main_v1_apply, val_main_v0_apply]
    refine congrArg x1 (funext fun a => Fin.ext ?_)
    match a with
    | ⟨0, _⟩ => rfl
    | ⟨1, _⟩ => show e.val % 800000 = e.val; exact Nat.mod_eq_of_lt e.isLt
  rw [val_main_v9_apply, val_main_v8_apply, val_main_v5_apply, val_main_v7_apply, h1, val_main_v4_apply, val_main_v6_apply, val_main_c_apply, val_main_c_0_apply]
  rfl

theorem srcWord25 (x1 : (⟨S2x800000, .i32⟩ : BufTy).Contents (Elt Ideal)) (e : Fin 800000) :
    val_main_v25 (F := Ideal) x1 (ix2 e (0 : Fin 1)) = GinEdges.wrap (x1 (ix2 (0 : Fin 2) e)) := by
  have h1 : val_main_v1 (F := Ideal) x1 (idx_main_v25 (ix2 e (0 : Fin 1))) = x1 (ix2 (0 : Fin 2) e) := by
    rw [val_main_v1_apply, val_main_v0_apply]
    refine congrArg x1 (funext fun a => Fin.ext ?_)
    match a with
    | ⟨0, _⟩ => rfl
    | ⟨1, _⟩ => show e.val % 800000 = e.val; exact Nat.mod_eq_of_lt e.isLt
  rw [val_main_v25_apply, val_main_v24_apply, val_main_v21_apply, val_main_v23_apply, h1, val_main_v20_apply, val_main_v22_apply, val_main_c_1_apply, val_main_c_2_apply]
  rfl

theorem dstWord12 (x1 : (⟨S2x800000, .i32⟩ : BufTy).Contents (Elt Ideal)) (e : Fin 800000) :
    val_main_v12 (F := Ideal) x1 (ix2 e (0 : Fin 1)) = x1 (ix2 (1 : Fin 2) e) := by
  rw [val_main_v12_apply, val_main_v3_apply, val_main_v2_apply]
  refine congrArg x1 (funext fun a => Fin.ext ?_)
  match a with
  | ⟨0, _⟩ => rfl
  | ⟨1, _⟩ => show e.val % 800000 = e.val; exact Nat.mod_eq_of_lt e.isLt

theorem dstWord28 (x1 : (⟨S2x800000, .i32⟩ : BufTy).Contents (Elt Ideal)) (e : Fin 800000) :
    val_main_v28 (F := Ideal) x1 (ix2 e (0 : Fin 1)) = x1 (ix2 (1 : Fin 2) e) := by
  rw [val_main_v28_apply, val_main_v3_apply, val_main_v2_apply]
  refine congrArg x1 (funext fun a => Fin.ext ?_)
  match a with
  | ⟨0, _⟩ => rfl
  | ⟨1, _⟩ => show e.val % 800000 = e.val; exact Nat.mod_eq_of_lt e.isLt

/-- The target of edge e, read signed and NOT wrapped. -/
def tgt (x1 : (⟨S2x800000, .i32⟩ : BufTy).Contents (Elt Ideal)) (e : Fin 800000) : ℤ := (x1 (ix2 (1 : Fin 2) e)).toInt
/-- The source row of edge e. -/
def srow (x1 : (⟨S2x800000, .i32⟩ : BufTy).Contents (Elt Ideal)) (e : Fin 800000) : Fin 50000 := GinEdges.srcRow (x1 (ix2 (0 : Fin 2) e))

/-! ## The first layer -/

/-- A node's row plus the neighbour sum of the input rows. -/
theorem v14_apply (x0 : (⟨S50000x96, .f32⟩ : BufTy).Contents (Elt Ideal)) (x1 : (⟨S2x800000, .i32⟩ : BufTy).Contents (Elt Ideal)) (n : Fin 50000) (f : Fin 96) :
    val_main_v14 (F := Ideal) x0 x1 (ix2 n f) = GinSpec.preR (tgt x1) (srow x1) (fun (a : Fin 50000) (c : Fin 96) => x0 (ix2 a c)) n f := by
  rw [val_main_v14_apply]
  unfold val_main_v13
  have hs := LibRowScatter.scatterAdd_rows_apply (N := 50000) (D := 96) (E := 800000) (φ := .f32)
    scatter_S50000x96_S800000x1_S800000x96_1_0_0_1.wf (val_main_v11 (F := Ideal)) (val_main_v12 (F := Ideal) x1) (val_main_v10 (F := Ideal) x0 x1) n f
  show x0 (ix2 n f) + _ = _
  refine congrArg (x0 (ix2 n f) + ·) (hs.trans ?_)
  rw [val_main_v11_apply, val_main_cst_apply]
  show Ideal.ofBits .f32 0x00000000#32 + _ = _
  rw [Ideal.ofBits_zero_f32]
  unfold GinSpec.seg
  refine congrArg ((0 : EReal) + ·) (Finset.sum_congr rfl fun e _ => ?_)
  rw [dstWord12]
  refine if_congr Iff.rfl ?_ rfl
  unfold val_main_v10
  refine (LibRowGather.gather_rows_apply (N := 50000) (D := 96) (E := 800000) (by decide)
    gather_S50000x96_S800000x1_S800000x96_1_0_n_n_0_1_196.wf x0 (val_main_v9 (F := Ideal) x1) e f).trans ?_
  rw [srcWord9]
  rfl

/-- The hidden layer. -/
theorem v19_apply (x0 : (⟨S50000x96, .f32⟩ : BufTy).Contents (Elt Ideal)) (x1 : (⟨S2x800000, .i32⟩ : BufTy).Contents (Elt Ideal)) (x2 : (⟨S96x96, .f32⟩ : BufTy).Contents (Elt Ideal)) (x3 : (⟨S96, .f32⟩ : BufTy).Contents (Elt Ideal)) (n : Fin 50000) (k : Fin 96) :
    val_main_v19 (F := Ideal) x0 x1 x2 x3 (ix2 n k)
      = GinSpec.hid (GinSpec.preR (tgt x1) (srow x1) (fun (a : Fin 50000) (c : Fin 96) => x0 (ix2 a c)))
          (fun (a b : Fin 96) => x2 (ix2 a b)) (fun q : Fin 96 => x3 (ix1 q)) n k := by
  rw [val_main_v19_apply, val_main_v18_apply, val_main_v15_apply, val_main_v17_apply, val_main_v16_apply,
    val_main_call0_v0_apply, val_main_call0_cst_apply]
  show max (_ + _) (Ideal.ofBits .f32 0x00000000#32) = _
  rw [Ideal.ofBits_zero_f32]
  unfold GinSpec.hid GinSpec.lin
  refine congrArg (max · (0 : EReal)) ?_
  refine congr (congrArg _ (Finset.sum_congr rfl fun q _ => ?_)) ?_
  · have hl : lidx_main_v15 (ix2 n k) q = ix2 n q := funext fun a => Fin.ext (by match a with | ⟨0, _⟩ => rfl | ⟨1, _⟩ => rfl)
    have hr : ridx_main_v15 (ix2 n k) q = ix2 q k := funext fun a => Fin.ext (by match a with | ⟨0, _⟩ => rfl | ⟨1, _⟩ => rfl)
    rw [hl, hr, v14_apply]
  · refine congrArg x3 (funext fun a => Fin.ext ?_)
    match a with
    | ⟨0, _⟩ => rfl

/-! ## The second layer -/

/-- A node's hidden row plus the neighbour sum of the hidden rows. -/
theorem v30_apply (x0 : (⟨S50000x96, .f32⟩ : BufTy).Contents (Elt Ideal)) (x1 : (⟨S2x800000, .i32⟩ : BufTy).Contents (Elt Ideal)) (x2 : (⟨S96x96, .f32⟩ : BufTy).Contents (Elt Ideal)) (x3 : (⟨S96, .f32⟩ : BufTy).Contents (Elt Ideal)) (n : Fin 50000) (k : Fin 96) :
    val_main_v30 (F := Ideal) x0 x1 x2 x3 (ix2 n k)
      = GinSpec.preR (tgt x1) (srow x1) (fun (a : Fin 50000) (c : Fin 96) => val_main_v19 (F := Ideal) x0 x1 x2 x3 (ix2 a c)) n k := by
  rw [val_main_v30_apply]
  unfold val_main_v29
  have hs := LibRowScatter.scatterAdd_rows_apply (N := 50000) (D := 96) (E := 800000) (φ := .f32)
    scatter_S50000x96_S800000x1_S800000x96_1_0_0_1.wf (val_main_v27 (F := Ideal)) (val_main_v28 (F := Ideal) x1) (val_main_v26 (F := Ideal) x0 x1 x2 x3) n k
  show val_main_v19 (F := Ideal) x0 x1 x2 x3 (ix2 n k) + _ = _
  refine congrArg (val_main_v19 (F := Ideal) x0 x1 x2 x3 (ix2 n k) + ·) (hs.trans ?_)
  rw [val_main_v27_apply, val_main_cst_3_apply]
  show Ideal.ofBits .f32 0x00000000#32 + _ = _
  rw [Ideal.ofBits_zero_f32]
  unfold GinSpec.seg
  refine congrArg ((0 : EReal) + ·) (Finset.sum_congr rfl fun e _ => ?_)
  rw [dstWord28]
  refine if_congr Iff.rfl ?_ rfl
  unfold val_main_v26
  refine (LibRowGather.gather_rows_apply (N := 50000) (D := 96) (E := 800000) (by decide)
    gather_S50000x96_S800000x1_S800000x96_1_0_n_n_0_1_196.wf (val_main_v19 (F := Ideal) x0 x1 x2 x3) (val_main_v25 (F := Ideal) x1) e k).trans ?_
  rw [srcWord25]
  rfl

/-- THE REFERENCE'S RESULT at entry (i, j): aggregate, then project, then the bias. -/
theorem result_apply (x0 : (⟨S50000x96, .f32⟩ : BufTy).Contents (Elt Ideal)) (x1 : (⟨S2x800000, .i32⟩ : BufTy).Contents (Elt Ideal)) (x2 : (⟨S96x96, .f32⟩ : BufTy).Contents (Elt Ideal)) (x3 : (⟨S96, .f32⟩ : BufTy).Contents (Elt Ideal)) (x4 : (⟨S96x2, .f32⟩ : BufTy).Contents (Elt Ideal)) (x5 : (⟨S2, .f32⟩ : BufTy).Contents (Elt Ideal)) (i : Fin 50000) (j : Fin 2) :
    val_main_v34 (F := Ideal) x0 x1 x2 x3 x4 x5 (ix2 i j)
      = GinSpec.outR (tgt x1) (srow x1) (fun (a : Fin 50000) (c : Fin 96) => x0 (ix2 a c)) (fun (a b : Fin 96) => x2 (ix2 a b))
          (fun q : Fin 96 => x3 (ix1 q)) (fun (a : Fin 96) (b : Fin 2) => x4 (ix2 a b)) (fun q : Fin 2 => x5 (ix1 q)) i j := by
  rw [val_main_v34_apply, val_main_v31_apply, val_main_v33_apply, val_main_v32_apply]
  unfold GinSpec.outR GinSpec.lin
  show _ + _ = _
  refine congr (congrArg _ (Finset.sum_congr rfl fun q _ => ?_)) ?_
  · have hl : lidx_main_v31 (ix2 i j) q = ix2 i q := funext fun a => Fin.ext (by match a with | ⟨0, _⟩ => rfl | ⟨1, _⟩ => rfl)
    have hr : ridx_main_v31 (ix2 i j) q = ix2 q j := funext fun a => Fin.ext (by match a with | ⟨0, _⟩ => rfl | ⟨1, _⟩ => rfl)
    rw [hl, hr, v30_apply]
    refine congrArg (· * x4 (ix2 q j)) ?_
    refine congrArg (fun z => GinSpec.preR (tgt x1) (srow x1) z i q) ?_
    funext a c
    exact v19_apply x0 x1 x2 x3 a c
  · refine congrArg x5 (funext fun a => Fin.ext ?_)
    match a with
    | ⟨0, _⟩ => rfl

end Cert.ReferenceIdeal.RefValue

end
-- ==== Proof.PreFacts.lean ====
/-
  The precondition `finite_inputs` decoded. The printed predicate is a conjunction (`and` of one-bit words) of seven
  `jnp.all` reductions: |x| < +∞ at every entry of the five float arrays, and 0 ≤ k, k < 50000 at every entry of the
  integer array. Its value being 1 therefore says: every float entry is a real number (an extended real whose absolute
  value max x (−x) is below ⊤ is neither ⊤ nor ⊥), and every integer entry lies in [0, 50000) read signed.
-/
import proofs.«146721_j36627481100824_2_alg».proof.Pre_finite_inputs
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs

/-- The rank-0 shape has one index. -/
instance : Subsingleton S_.Idx := ⟨fun a b => funext fun d => d.elim0⟩

/-- The f32 pattern 0x7F800000 denotes +∞. -/
theorem inf_eq_top : Ideal.ofBits .f32 0x7F800000#32 = (⊤ : EReal) := by simp [Ideal.ofBits, Ideal.ieee]

/-- An extended real x with max x (−x) < ⊤ is a real: at ⊤ the maximum is ⊤, at ⊥ it is −⊥ = ⊤. -/
theorem real_of_abs_lt_top (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  change Ideal.cmp .olt (max x (-x)) (Ideal.ofBits .f32 0x7F800000#32) = 1#1 at h
  rw [inf_eq_top] at h
  induction x using EReal.rec with
  | bot => simp [Ideal.cmp] at h
  | coe r => exact ⟨r, rfl⟩
  | top => simp [Ideal.cmp] at h

/-- The precondition's value 1 at the one index of its rank-0 result splits, conjunct by conjunct, into the seven
    reductions being 1; a reduction by `and` over all axes that is 1 met a 1 at every index; and the compared bit at
    an index says |x| < +∞ of the float entry there, 0 ≤ k or k < 50000 (signed) of the integer entry there. -/
theorem facts [Facts] (a0 : FVec Ideal S50000x96 .f32) (a1 : IVec S2x800000 32) (a2 : FVec Ideal S96x96 .f32)
    (a3 : FVec Ideal S96 .f32) (a4 : FVec Ideal S96x2 .f32) (a5 : FVec Ideal S2 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, 0 ≤ (a1 i).toInt) ∧ (∀ i, (a1 i).toInt < 50000) := by
  have e := congrFun h ValueIdx.ix0
  dsimp only [Cert.Pre_finite_inputs.fn, Cert.Pre_finite_inputs.fn_part1] at e
  simp only [andi, IntOp.andi_eq_one] at e
  obtain ⟨⟨⟨⟨⟨⟨h0, h2⟩, h3⟩, h4⟩, h5⟩, hge⟩, hlt⟩ := e
  refine ⟨fun i => ?_, fun i => ?_, fun i => ?_, fun i => ?_, fun i => ?_, fun i => ?_⟩
  · exact real_of_abs_lt_top _ (Host.reduce_andi_all _ _ _ _ _ h0 i)
  · exact real_of_abs_lt_top _ (Host.reduce_andi_all _ _ _ _ _ h2 i)
  · exact real_of_abs_lt_top _ (Host.reduce_andi_all _ _ _ _ _ h3 i)
  · exact real_of_abs_lt_top _ (Host.reduce_andi_all _ _ _ _ _ h4 i)
  · have b := Host.reduce_andi_all _ _ _ _ _ hge i
    have b' : IntOp.cmpi .sge (a1 i) (0#32) = 1#1 := b
    rw [IntOp.cmpi_sge] at b'
    exact b'
  · have b := Host.reduce_andi_all _ _ _ _ _ hlt i
    have b' : IntOp.cmpi .slt (a1 i) (50000#32) = 1#1 := b
    rw [IntOp.cmpi_slt] at b'
    exact b'

/-- The sixth array likewise: every entry of the [2] float array is a real. -/
theorem a5_real [Facts] (a0 : FVec Ideal S50000x96 .f32) (a1 : IVec S2x800000 32) (a2 : FVec Ideal S96x96 .f32)
    (a3 : FVec Ideal S96 .f32) (a4 : FVec Ideal S96x2 .f32) (a5 : FVec Ideal S2 .f32)
    (h : Cert.Pre_finite_inputs.fn (F := Ideal) a0 a1 a2 a3 a4 a5 = fun _ => 1#1) :
    ∀ i, ∃ r : ℝ, a5 i = (r : EReal) := by
  have e := congrFun h ValueIdx.ix0
  dsimp only [Cert.Pre_finite_inputs.fn, Cert.Pre_finite_inputs.fn_part1] at e
  simp only [andi, IntOp.andi_eq_one] at e
  obtain ⟨⟨⟨-, h5⟩, -⟩, -⟩ := e
  exact fun i => real_of_abs_lt_top _ (Host.reduce_andi_all _ _ _ _ _ h5 i)

end Cert.PreFacts

end
-- ==== Proof.GinAlgebra.lean ====
/-
  Project-then-aggregate equals aggregate-then-project for the two-layer sum-aggregating graph network, when every
  entry that gets multiplied is a real number.

  Multiplication does not distribute over addition on the extended reals when infinities are present
  (for instance (⊤ + ⊥) * 1 versus ⊤ * 1 + ⊥ * 1), so the distributive step is done in ℝ.  The road: real-valued
  copies of the neighbour sum, the linear map and the hidden layer; each extended-real definition at coerced real
  inputs is the coercion of its real copy (the coercion ℝ → EReal preserves +, *, 0, max and finite sums); then the
  second layer is the identity  Σ_k (h i k + Σ_e [tgt e = i] h (srow e) k) · W k j
    = Σ_k h i k · W k j + Σ_e [tgt e = i] Σ_k h (srow e) k · W k j  in ℝ.
-/
import proofs.«146721_j36627481100824_2_alg».proof.Proof.GinSpec

noncomputable section

open scoped BigOperators

namespace GinSpec

variable {N E A B : Nat}

/-- The coercion ℝ → EReal commutes with finite sums: induction on the index set, using that it preserves 0 and +. -/
theorem coe_finsum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion ℝ → EReal is monotone, hence commutes with max; here against 0. -/
theorem coe_max_zero (a : ℝ) : ((max a 0 : ℝ) : EReal) = max ((a : ℝ) : EReal) 0 := by
  rw [EReal.coe_strictMono.monotone.map_max, EReal.coe_zero]

/-- The neighbour sum over ℝ. -/
def segR (tgt : Fin E → ℤ) (srow : Fin E → Fin N) (z : Fin N → Fin A → ℝ) (i : Fin N) (c : Fin A) : ℝ :=
  ∑ e : Fin E, if tgt e = ((i : ℕ) : ℤ) then z (srow e) c else 0

/-- The linear map over ℝ. -/
def linR (a : Fin N → Fin A → ℝ) (W : Fin A → Fin B → ℝ) (i : Fin N) (j : Fin B) : ℝ :=
  ∑ k : Fin A, a i k * W k j

/-- The hidden layer over ℝ. -/
def hidR (a : Fin N → Fin A → ℝ) (W : Fin A → Fin B → ℝ) (b : Fin B → ℝ) (i : Fin N) (k : Fin B) : ℝ :=
  max (linR a W i k + b k) 0

/-- The neighbour sum of real rows is real: a finite sum of terms each of which is a real entry or 0. -/
theorem seg_coe (tgt : Fin E → ℤ) (srow : Fin E → Fin N) (z : Fin N → Fin A → ℝ) :
    seg tgt srow (fun n c => ((z n c : ℝ) : EReal)) = fun i c => ((segR tgt srow z i c : ℝ) : EReal) := by
  funext i c
  simp only [seg, segR]
  rw [coe_finsum]
  refine Finset.sum_congr rfl (fun e _ => ?_)
  split_ifs
  · rfl
  · exact EReal.coe_zero.symm

/-- A real row plus its neighbour sum is real. -/
theorem preK_coe (tgt : Fin E → ℤ) (srow : Fin E → Fin N) (z : Fin N → Fin A → ℝ) :
    preK tgt srow (fun n c => ((z n c : ℝ) : EReal))
      = fun i c => ((z i c + segR tgt srow z i c : ℝ) : EReal) := by
  funext i c
  simp only [preK, seg_coe, EReal.coe_add]

/-- The same with the neighbour sum accumulated onto zero first: 0 + s = s. -/
theorem preR_coe (tgt : Fin E → ℤ) (srow : Fin E → Fin N) (z : Fin N → Fin A → ℝ) :
    preR tgt srow (fun n c => ((z n c : ℝ) : EReal))
      = fun i c => ((z i c + segR tgt srow z i c : ℝ) : EReal) := by
  funext i c
  simp only [preR, seg_coe, zero_add, EReal.coe_add]

/-- A real matrix times a real matrix is real: a finite sum of products of reals. -/
theorem lin_coe (a : Fin N → Fin A → ℝ) (W : Fin A → Fin B → ℝ) :
    lin (fun n c => ((a n c : ℝ) : EReal)) (fun k j => ((W k j : ℝ) : EReal))
      = fun i j => ((linR a W i j : ℝ) : EReal) := by
  funext i j
  simp only [lin, linR]
  rw [coe_finsum]
  refine Finset.sum_congr rfl (fun k _ => ?_)
  rw [EReal.coe_mul]

/-- The hidden layer of real data is real. -/
theorem hid_coe (a : Fin N → Fin A → ℝ) (W : Fin A → Fin B → ℝ) (b : Fin B → ℝ) :
    hid (fun n c => ((a n c : ℝ) : EReal)) (fun k j => ((W k j : ℝ) : EReal)) (fun k => ((b k : ℝ) : EReal))
      = fun i k => ((hidR a W b i k : ℝ) : EReal) := by
  funext i k
  simp only [hid, hidR, lin_coe]
  rw [coe_max_zero, EReal.coe_add]

/-- Linearity over ℝ: mapping rows through W and then adding the neighbour sum of the mapped rows equals adding the
    neighbour sum first and then mapping.  Right-distributivity, a sum of sums splits, the two finite sums swap,
    and the edge condition does not depend on the inner index. -/
theorem linR_add_segR (tgt : Fin E → ℤ) (srow : Fin E → Fin N) (h : Fin N → Fin A → ℝ) (W : Fin A → Fin B → ℝ)
    (i : Fin N) (j : Fin B) :
    linR h W i j + segR tgt srow (linR h W) i j
      = linR (fun n c => h n c + segR tgt srow h n c) W i j := by
  simp only [linR, segR, add_mul, Finset.sum_add_distrib, Finset.sum_mul, ite_mul, zero_mul]
  congr 1
  rw [Finset.sum_comm]
  refine Finset.sum_congr rfl (fun e _ => ?_)
  split_ifs
  · rfl
  · exact Finset.sum_const_zero.symm

/-- The two arrangements agree on real data (the last bias may be any extended real: it is added last on both
    sides). -/
theorem outK_eq_outR (tgt : Fin E → ℤ) (srow : Fin E → Fin N)
    (x : Fin N → Fin A → ℝ) (W1 : Fin A → Fin A → ℝ) (b1 : Fin A → ℝ) (W2 : Fin A → Fin B → ℝ) (b2 : Fin B → EReal)
    (i : Fin N) (j : Fin B) :
    outK tgt srow (fun n c => ((x n c : ℝ) : EReal)) (fun a b => ((W1 a b : ℝ) : EReal))
        (fun k => ((b1 k : ℝ) : EReal)) (fun a b => ((W2 a b : ℝ) : EReal)) b2 i j
      = outR tgt srow (fun n c => ((x n c : ℝ) : EReal)) (fun a b => ((W1 a b : ℝ) : EReal))
        (fun k => ((b1 k : ℝ) : EReal)) (fun a b => ((W2 a b : ℝ) : EReal)) b2 i j := by
  simp only [outK, outR, preK_coe, preR_coe, hid_coe, lin_coe, add_zero]
  rw [linR_add_segR]

end GinSpec

end
-- ==== Proof.Bridge.lean ====
/-
  The two programs compute the same entries on inputs satisfying the precondition.

  The kernel program's result is the project-then-aggregate network with each target word wrapped (a negative word
  counting from the end); the reference's is the aggregate-then-project network with the target words as they are.
  The precondition says every index word lies in [0, 50000) — so wrapping does nothing and the two edge relations
  are one — and every float entry is a real number — so the linear map commutes with the finite neighbour sums.
-/
import proofs.«146721_j36627481100824_2_alg».proof.Proof.KResult
import proofs.«146721_j36627481100824_2_alg».proof.Proof.RefValue
import proofs.«146721_j36627481100824_2_alg».proof.Proof.PreFacts
import proofs.«146721_j36627481100824_2_alg».proof.Proof.GinAlgebra
import proofs.«146721_j36627481100824_2_alg».proof.Proof.Gen.Pre_finite_inputs

noncomputable section

namespace Cert.Bridge

open Idealize.ShloMosaic Idealize.ShloMosaic.ValueIdx

/-- Under the precondition the two arrangements of the network agree at every entry. -/
theorem entries_eq (x0 : FVec Ideal Cert.Pre_finite_inputs.S50000x96 .f32) (x1 : IVec Cert.Pre_finite_inputs.S2x800000 32)
    (x2 : FVec Ideal Cert.Pre_finite_inputs.S96x96 .f32) (x3 : FVec Ideal Cert.Pre_finite_inputs.S96 .f32)
    (x4 : FVec Ideal Cert.Pre_finite_inputs.S96x2 .f32) (x5 : FVec Ideal Cert.Pre_finite_inputs.S2 .f32)
    (h : Cert.Pre_finite_inputs.fn (F := Ideal) x0 x1 x2 x3 x4 x5 = fun _ => 1#1) (i : Fin 50000) (j : Fin 2) :
    GinSpec.outK (Cert.KernelIdeal.KResult.tgt x1) (Cert.KernelIdeal.KResult.srow x1) (fun (a : Fin 50000) (b : Fin 96) => x0 (ix2 a b))
        (fun (a b : Fin 96) => x2 (ix2 a b)) (fun q : Fin 96 => x3 (ix1 q)) (fun (a : Fin 96) (b : Fin 2) => x4 (ix2 a b)) (fun q : Fin 2 => x5 (ix1 q)) i j
      = GinSpec.outR (Cert.ReferenceIdeal.RefValue.tgt x1) (Cert.ReferenceIdeal.RefValue.srow x1) (fun (a : Fin 50000) (b : Fin 96) => x0 (ix2 a b))
        (fun (a b : Fin 96) => x2 (ix2 a b)) (fun q : Fin 96 => x3 (ix1 q)) (fun (a : Fin 96) (b : Fin 2) => x4 (ix2 a b)) (fun q : Fin 2 => x5 (ix1 q)) i j := by
  obtain ⟨h0, h2, h3, h4, hge, hlt⟩ := Cert.PreFacts.facts x0 x1 x2 x3 x4 x5 h
  -- a non-negative target word is its own wrapping
  have ht : Cert.KernelIdeal.KResult.tgt x1 = Cert.ReferenceIdeal.RefValue.tgt x1 := funext fun e => by
    unfold Cert.KernelIdeal.KResult.tgt Cert.ReferenceIdeal.RefValue.tgt
    rw [GinEdges.wrap_of_nonneg (hge _)]
  have hs : Cert.KernelIdeal.KResult.srow x1 = Cert.ReferenceIdeal.RefValue.srow x1 := rfl
  rw [ht, hs]
  -- every multiplied entry is a real number
  choose r0 hr0 using h0
  choose r2 hr2 using h2
  choose r3 hr3 using h3
  choose r4 hr4 using h4
  have e0 : (fun (a : Fin 50000) (b : Fin 96) => x0 (ix2 a b)) = fun a b => ((r0 (ix2 a b) : ℝ) : EReal) := funext fun a => funext fun b => hr0 _
  have e2 : (fun (a b : Fin 96) => x2 (ix2 a b)) = fun a b => ((r2 (ix2 a b) : ℝ) : EReal) := funext fun a => funext fun b => hr2 _
  have e3 : (fun q : Fin 96 => x3 (ix1 q)) = fun q => ((r3 (ix1 q) : ℝ) : EReal) := funext fun q => hr3 _
  have e4 : (fun (a : Fin 96) (b : Fin 2) => x4 (ix2 a b)) = fun a b => ((r4 (ix2 a b) : ℝ) : EReal) := funext fun a => funext fun b => hr4 _
  rw [e0, e2, e3, e4]
  exact GinSpec.outK_eq_outR _ _ _ _ _ _ _ i j

end Cert.Bridge

end
-- ==== Proof.lean ====
/-
  The certificate of a two-layer sum-aggregating graph network: a kernel program (two dense-layer kernel regions
  among host gathers and accumulating scatters) against a plain reference.

  The two programs arrange the second layer differently.  The reference adds to each node's hidden row the sum of
  its neighbours' hidden rows and then maps the result through the [96, 2] matrix; the kernel program maps every
  hidden row through the matrix first and then adds the neighbour sum of the mapped rows.  A linear map commutes with
  finite sums of real numbers, so the results agree when every entry that gets multiplied is real: the precondition
  gives that.  The precondition also confines every index word of the edge list to [0, 50000): the kernel program
  lets a negative target word count from the end where the reference drops it, and inside the range the two agree.

  Proof/GinSpec.lean states both arrangements as functions; Proof/GinAlgebra.lean proves them equal on real data;
  Proof/KBody.lean, KRegion0.lean, KRegion1.lean, KHost.lean, KValue.lean, KResult.lean and KRun.lean read the kernel
  program's result off its run; Proof/RefValue.lean reads the reference's; Proof/PreFacts.lean decodes the
  precondition; Proof/Bridge.lean joins them.  The three frames are the programs' runs with the result dropped.
-/
import proofs.«146721_j36627481100824_2_alg».proof.Defs
import proofs.«146721_j36627481100824_2_alg».proof.Proof.Gen.Kernel
import proofs.«146721_j36627481100824_2_alg».proof.Proof.Gen.Kernel.Skeleton
import proofs.«146721_j36627481100824_2_alg».proof.Proof.Gen.Kernel.Launch
import proofs.«146721_j36627481100824_2_alg».proof.Proof.Gen.Kernel.Points
import proofs.«146721_j36627481100824_2_alg».proof.Proof.Gen.Kernel.Frame
import proofs.«146721_j36627481100824_2_alg».proof.Proof.Gen.KernelIdeal
import proofs.«146721_j36627481100824_2_alg».proof.Proof.Gen.KernelIdeal.Skeleton
import proofs.«146721_j36627481100824_2_alg».proof.Proof.Gen.KernelIdeal.Launch
import proofs.«146721_j36627481100824_2_alg».proof.Proof.Gen.KernelIdeal.Points
import proofs.«146721_j36627481100824_2_alg».proof.Proof.Gen.KernelIdeal.Frame
import proofs.«146721_j36627481100824_2_alg».proof.Proof.Gen.ReferenceIdeal
import proofs.«146721_j36627481100824_2_alg».proof.Proof.Gen.ReferenceIdeal.Run
import proofs.«146721_j36627481100824_2_alg».proof.Proof.Gen.ReferenceIdeal.Read
import proofs.«146721_j36627481100824_2_alg».proof.Proof.Gen.Pre_finite_inputs
import proofs.«146721_j36627481100824_2_alg».proof.Proof.KRun
import proofs.«146721_j36627481100824_2_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments unchanged. -/
theorem frame_k : Cert.frame_Kernel := fun m ρ _ => Cert.Kernel.Gen.frame m ρ

/-- So does the kernel program at exact arithmetic. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs run and end with the same result: entry (i, j) of the
    kernel program's is the project-then-aggregate network of the inputs, of the reference's the
    aggregate-then-project one, and under the precondition those agree. -/
theorem algebraic : Cert.algebraic_KernelIdeal_ReferenceIdeal := by
  intro m ρ m' ρ' hpre hagree
  refine ⟨fun c => Cert.KernelIdeal.Gen.W5 m ρ c (Proc.devRef .tc Cert.KernelIdeal.main_v39), Cert.KernelIdeal.KRun.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2.1,
    (hagree c).2.2.2.2.1, (hagree c).2.2.2.2.2]
  funext idx
  obtain ⟨i, j, rfl⟩ : ∃ (i : Fin 50000) (j : Fin 2), idx = ix2 i j := ⟨idx 0, idx 1, eq_ix2 idx⟩
  rw [Cert.ReferenceIdeal.RefValue.result_apply]
  refine Eq.trans ?_ (Cert.KernelIdeal.KResult.result_apply m ρ c i j).symm
  exact (Cert.Bridge.entries_eq _ _ _ _ _ _ (hpre c) i j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
